-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x128 : Shape := ⟨2, ![5000, 128]⟩

abbrev nBuf : Space → Nat
  | .hbm => 84
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | .local _ .vmem, ⟨11, _⟩ => ⟨S128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128_S128_0 : ∀ a, (![0] : Fin 1 → Nat) a + S128.size a ≤ S128.size a
  h_S128 : 0 < S128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128_S128 : S128.ShapeCasts S128
  reduces_S5000x128_S128 : S5000x128.Reduces [0] S128
  bcast_S_S128 : S_.BroadcastsInDim S128 (![] : Fin 0 → Fin S128.rank)
  shapeCasts_S2000x128_S2000x128 : S2000x128.ShapeCasts S2000x128
  shapeCasts_S128_S1x128 : S128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_cst_3 : Ref sig .tc := ⟨.hbm, 88, rfl⟩
abbrev main_call1_v12 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_12 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call2_cst : Ref sig .tc := ⟨.hbm, 110, rfl⟩
abbrev main_call2_v0 : Ref sig .tc := ⟨.hbm, 111, rfl⟩
abbrev main_v66 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel program's run with its RESULT named. The program is three pallas regions among stretches of host
  operations; at every segment boundary the TensorCore's buffers hold a fold of the launch memory (a host stretch
  applies its operations, a region leaves each of its arrays at what its write-backs put there and every other buffer
  alone). Every weakly fair execution ends with each unscoped buffer at the last boundary's contents, so the result
  buffer ends at that fold read at the result, and the six argument arrays end as launched.
-/
import proofs.«166404_j15324443312752_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents read at it, and the argument arrays end as launched. -/
theorem run_fold : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunVal

end
-- ==== Proof.KGlue.lean ====
/-
  The graph aggregation between the projection and the statistics, as ONE pure function of the projected features
  `h`, the edge list `e` and the bias `b`: source and destination columns (each edge row followed by the self loops),
  the in-degree as a scatter-add of ones, its inverse square root where the degree is positive and zero elsewhere,
  the edge weight as the product of the two end nodes' factors, the messages `h[src] · weight`, their scatter-add
  into the destination rows, plus the bias row. The kernel program computes it in three stretches of host operations;
  each stretch is read here at the buffers the next one uses.
-/
import proofs.«166404_j15324443312752_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- Row `k` of the edge list followed by the node numbers `0 … 99999` (the self loops). -/
def srcOf (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

def dstOf (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- A vector of 1700000 entries as a column. -/
abbrev col {α : Type} (v : S1700000.Idx → α) : S1700000x1.Idx → α := broadcastInDim S1700000x1 ![0] bcast_S1700000_S1700000x1_0 v

/-- The in-degree, self loop included: ones added into the destination entries. -/
def degOf (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (col (dstOf e))
    (broadcastInDim S1700000 ![] bcast_S_S1700000 (constant (F := Ideal) S_ .f32 0x3F800000#32))

/-- `where(deg > 0, rsqrt deg, 0)` from its three operands. -/
def dinvFrom (c : IVec S100000 1) (r : FVec Ideal S100000 .f32) (z : FVec Ideal S_ .f32) : FVec Ideal S100000 .f32 :=
  select c r (broadcastInDim S100000 ![] bcast_S_S100000 z)

def dinvOf (e : IVec S2x1600000 32) : FVec Ideal S100000 .f32 :=
  dinvFrom (cmpf .ogt (degOf e) (broadcastInDim S100000 ![] bcast_S_S100000 (constant (F := Ideal) S_ .f32 0x00000000#32)))
    (Host.rsqrt (F := Ideal) (degOf e)) (constant (F := Ideal) S_ .f32 0x00000000#32)

/-- A negative row number counted from the end. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The aggregation from the projected features, the two index columns, the per-node factor and the bias. -/
def aggFrom (h : FVec Ideal S100000x128 .f32) (src dst : IVec S1700000 32) (dinv : FVec Ideal S100000 .f32) (b : FVec Ideal S128 .f32) :
    FVec Ideal S100000x128 .f32 :=
  addf
    (Host.scatterAdd (F := Ideal) scatter_S100000x128_S1700000x1_S1700000x128_1_0_0_1
      (broadcastInDim S100000x128 ![] bcast_S_S100000x128 (constant (F := Ideal) S_ .f32 0x00000000#32))
      (col dst)
      (mulf
        (Host.gather gather_S100000x128_S1700000x1_S1700000x128_1_0_n_n_0_1_1128 h (col (wrap src)))
        (broadcastInDim S1700000x128 ![0, 1] bcast_S1700000x1_S1700000x128_0_1
          (col (mulf
            (Host.gather gather_S100000_S1700000x1_S1700000_n_0_n_n_0_1_1 dinv (col (wrap src)))
            (Host.gather gather_S100000_S1700000x1_S1700000_n_0_n_n_0_1_1 dinv (col (wrap dst))))))))
    (broadcastInDim S100000x128 ![0, 1] bcast_S1x128_S100000x128_0_1 (broadcastInDim S1x128 ![1] bcast_S128_S1x128_1 b))

/-- The whole aggregation. -/
def aggOf (h : FVec Ideal S100000x128 .f32) (e : IVec S2x1600000 32) (b : FVec Ideal S128 .f32) : FVec Ideal S100000x128 .f32 :=
  aggFrom h (srcOf e) (dstOf e) (dinvOf e) b

variable (W : Valuation τ sig (Elt Ideal))

/-! ## The first stretch -/

theorem s1_src : StableHlo.after (hostOps1 (F := Ideal)) W (Proc.devRef .tc main_v4) = srcOf (W (Proc.devRef .tc main_arg1)) := by
  after_results <;> rfl
theorem s1_dst : StableHlo.after (hostOps1 (F := Ideal)) W (Proc.devRef .tc main_v7) = dstOf (W (Proc.devRef .tc main_arg1)) := by
  after_results <;> rfl

theorem s1_cmp : StableHlo.after (hostOps1 (F := Ideal)) W (Proc.devRef .tc main_v13)
    = cmpf .ogt (degOf (W (Proc.devRef .tc main_arg1))) (broadcastInDim S100000 ![] bcast_S_S100000 (constant (F := Ideal) S_ .f32 0x00000000#32)) := by
  after_results <;> rfl
theorem s1_rsqrt : StableHlo.after (hostOps1 (F := Ideal)) W (Proc.devRef .tc main_v14) = Host.rsqrt (F := Ideal) (degOf (W (Proc.devRef .tc main_arg1))) := by
  after_results <;> rfl
theorem s1_zero : StableHlo.after (hostOps1 (F := Ideal)) W (Proc.devRef .tc main_cst_2) = constant (F := Ideal) S_ .f32 0x00000000#32 := by
  after_results <;> rfl

/-- A buffer that no operation of a stretch writes keeps its contents. -/
macro "kept_by_stretch" : tactic =>
  `(tactic| (refine StableHlo.after_of_forall_not_mem _ _ (List.forall_iff_forall_mem.mp ?_)
             simp only [hostOps1, hostOps1_1, hostOps1_2, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem s1_h : StableHlo.after (hostOps1 (F := Ideal)) W (Proc.devRef .tc main_v0) = W (Proc.devRef .tc main_v0) := by kept_by_stretch
theorem s1_b : StableHlo.after (hostOps1 (F := Ideal)) W (Proc.devRef .tc main_arg3) = W (Proc.devRef .tc main_arg3) := by kept_by_stretch

/-! ## The second stretch: the call that selects -/

theorem s2_dinv : StableHlo.after (hostOps1_1 (F := Ideal)) W (Proc.devRef .tc main_v15)
    = dinvFrom (W (Proc.devRef .tc main_v13)) (W (Proc.devRef .tc main_v14)) (W (Proc.devRef .tc main_cst_2)) := by
  after_results <;> rfl
theorem s2_src : StableHlo.after (hostOps1_1 (F := Ideal)) W (Proc.devRef .tc main_v4) = W (Proc.devRef .tc main_v4) := by kept_by_stretch
theorem s2_dst : StableHlo.after (hostOps1_1 (F := Ideal)) W (Proc.devRef .tc main_v7) = W (Proc.devRef .tc main_v7) := by kept_by_stretch
theorem s2_h : StableHlo.after (hostOps1_1 (F := Ideal)) W (Proc.devRef .tc main_v0) = W (Proc.devRef .tc main_v0) := by kept_by_stretch
theorem s2_b : StableHlo.after (hostOps1_1 (F := Ideal)) W (Proc.devRef .tc main_arg3) = W (Proc.devRef .tc main_arg3) := by kept_by_stretch

/-! ## The third stretch -/

theorem s3_agg : StableHlo.after (hostOps1_2 (F := Ideal)) W (Proc.devRef .tc main_v46)
    = aggFrom (W (Proc.devRef .tc main_v0)) (W (Proc.devRef .tc main_v4)) (W (Proc.devRef .tc main_v7)) (W (Proc.devRef .tc main_v15))
        (W (Proc.devRef .tc main_arg3)) := by
  after_results_simp <;> rfl

/-! ## The three stretches in a row -/

theorem agg_eq : StableHlo.after (hostOps1_2 (F := Ideal)) (StableHlo.after (hostOps1_1 (F := Ideal)) (StableHlo.after (hostOps1 (F := Ideal)) W))
      (Proc.devRef .tc main_v46)
    = aggOf (W (Proc.devRef .tc main_v0)) (W (Proc.devRef .tc main_arg1)) (W (Proc.devRef .tc main_arg3)) := by
  rw [s3_agg, s2_h, s2_src, s2_dst, s2_b, s2_dinv, s1_h, s1_src, s1_dst, s1_b, s1_cmp, s1_rsqrt, s1_zero]
  rfl

end Cert.KernelIdeal.Glue

end
-- ==== Proof.KTail.lean ====
/-
  The host arithmetic between the statistics region and the affine region of the kernel program, as pure functions
  of the two column sums: mean `S / N`, variance `Q / N − mean²`, scale `γ · rsqrt (var + ε)` and shift
  `β − mean · scale`, each a vector of 128 entries; and each read at an entry on the extended reals.
-/
import proofs.«166404_j15324443312752_1_alg».proof.Proof.Gen.KernelIdeal
import Idealize.ShloMosaic.PureOps.Ideal
import Idealize.ShloMosaic.Lib.ValueIdx

noncomputable section

namespace Cert.KernelIdeal.Tail

open Cert.KernelIdeal Idealize.ShloMosaic Idealize.ShloMosaic.ValueIdx

/-- The row count as the program spells it: the f32 word of 100000.0. -/
abbrev Nw : EReal := Ideal.ofBits .f32 0x47C35000#32
/-- The variance offset as the program spells it: the f32 word nearest 1e-5. -/
abbrev εw : EReal := Ideal.ofBits .f32 0x3727C5AC#32

/-- `S / N`. -/
def meanK (s : FVec Ideal S128 .f32) : FVec Ideal S128 .f32 :=
  Host.divf (F := Ideal) s (broadcastInDim S128 ![] Facts₀.bcast_S_S128 (constant (F := Ideal) S_ .f32 0x47C35000#32))

/-- `Q / N − mean · mean`. -/
def varK (s sq : FVec Ideal S128 .f32) : FVec Ideal S128 .f32 :=
  subf (Host.divf (F := Ideal) sq (broadcastInDim S128 ![] Facts₀.bcast_S_S128 (constant (F := Ideal) S_ .f32 0x47C35000#32)))
    (mulf (meanK s) (meanK s))

/-- `γ · rsqrt (var + ε)`. -/
def scaleK (s sq g : FVec Ideal S128 .f32) : FVec Ideal S128 .f32 :=
  mulf g (Host.rsqrt (F := Ideal) (addf (varK s sq)
    (broadcastInDim S128 ![] Facts₀.bcast_S_S128 (constant (F := Ideal) S_ .f32 0x3727C5AC#32))))

/-- `β − mean · scale`. -/
def shiftK (s sq g bt : FVec Ideal S128 .f32) : FVec Ideal S128 .f32 :=
  subf bt (mulf (meanK s) (scaleK s sq g))

theorem meanK_apply (s : FVec Ideal S128 .f32) (j : S128.Idx) : meanK s j = Ideal.div (s j) Nw := by
  simp only [meanK, Host.divf, broadcastInDim, constant, Ideal.hostDivf_def, Ideal.ofBits_def]

theorem varK_apply (s sq : FVec Ideal S128 .f32) (j : S128.Idx) :
    varK s sq j = Ideal.div (sq j) Nw - Ideal.div (s j) Nw * Ideal.div (s j) Nw := by
  simp only [varK, subf, mulf, meanK_apply, Host.divf, broadcastInDim, constant, Ideal.hostDivf_def, Ideal.ofBits_def,
    Ideal.subf_def, Ideal.mulf_def]

theorem scaleK_apply (s sq g : FVec Ideal S128 .f32) (j : S128.Idx) :
    scaleK s sq g j = g j * Ideal.rsqrt ((Ideal.div (sq j) Nw - Ideal.div (s j) Nw * Ideal.div (s j) Nw) + εw) := by
  simp only [scaleK, mulf, addf, Host.rsqrt, varK_apply, broadcastInDim, constant, Ideal.hostUnary_rsqrt_def, Ideal.ofBits_def,
    Ideal.addf_def, Ideal.mulf_def]

theorem shiftK_apply (s sq g bt : FVec Ideal S128 .f32) (j : S128.Idx) :
    shiftK s sq g bt j = bt j - Ideal.div (s j) Nw * scaleK s sq g j := by
  simp only [shiftK, subf, mulf, meanK_apply, Ideal.subf_def, Ideal.mulf_def]

end Cert.KernelIdeal.Tail

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KReg0.lean ====
/-
  The first pallas region of the idealized kernel program, in closed form.

  The region multiplies x : [100000, 128] by W : [128, 128]. Its grid has 50 points; point t stages rows
  2000 t … 2000 t + 1999 of x, the whole of W, and writes back rows 2000 t … 2000 t + 1999 of the result.
  The body narrows both operands to bf16 — the identity on the extended reals — and takes their matrix
  product into a zero accumulator, so an entry of the block it leaves is the row-by-column sum
  ∑ k, x_block (p, k) · W (k, q). Row p of the block of point t is row 2000 t + p of x, the 50 blocks
  tile the rows of the result, and therefore the result array ends holding, at (r, q), ∑ k, x (r, k) · W (k, q).
-/
import proofs.«166404_j15324443312752_1_alg».proof.Proof.Gen.KernelIdeal.Frame
import proofs.«166404_j15324443312752_1_alg».proof.Proof.LibDense
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Offsets (0, 0), however spelt. -/
theorem zero_offsets2 : (![0, 0] : Fin 2 → Nat) = fun _ => 0 := funext fun a => by fin_cases a <;> rfl

/-- The product x · W, entry by entry: entry (r, q) is ∑ k, x (r, k) · W (k, q). -/
abbrev xW (x : S100000x128.Idx → EReal) (w : S128x128.Idx → EReal) : S100000x128.Idx → EReal :=
  Cert.LibDense.prod x w

/-- The body's block at an entry (p, q): the row-by-column sum of the staged rows of x and of W. The narrowing
    of the two operands is the identity on the extended reals and the accumulator is zero. -/
theorem matmul_block (x0 : Vec Ideal S2000x128 .f32) (x1 : Vec Ideal S128x128 .f32) (j : S2000x128.Idx) :
    k0_pay1 x0 x1 j = ∑ k : Fin 128, x0 (ix2 (j 0) k) * x1 (ix2 k (j 1)) := by
  unfold k0_pay1
  exact Cert.LibDense.matmul_plain (M := 2000) (K := 128) (N := 128) (φ₁ := .bf16) (φ₂ := .bf16) x0 x1 j

/-- The index maps of the region's three windows over its 50 points: the blocks of x and of the result are at
    block row t, block column 0; W's one block is at (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W, of the arrays as the region finds them. -/
theorem flushed0_eq (c : Dev nD) (t : Fin cfg0.N) :
    (dat0 (F := Ideal) V c).flushed 2 t
      = ((cfg0.win 2).blk t).view.read (Elt Ideal) (xW (V c main_arg0) (V c main_arg2)) := by
  show (cfg0.win 2).cut (grid0.coords t) ((dat0 (F := Ideal) V c).after 2 t) = _
  rw [after0_2]
  unfold out0_2
  rw [View.canon_unit_zero zero_offsets2]
  simp only [View.ld_unit_zero (S := S2000x128) zero_offsets2, View.ld_unit_zero (S := S128x128) zero_offsets2]
  obtain ⟨e00, e01, e10, e11, e20, e21⟩ := block_indices0 t
  funext j
  refine (matmul_block (iblk0 V c 0 t) (iblk0 V c 1 t) j).trans ?_
  show _ = xW (V c main_arg0) (V c main_arg2) (((cfg0.win 2).blk t).view.emb j)
  unfold xW Cert.LibDense.prod
  refine Finset.sum_congr rfl fun k _ => ?_
  have hx : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hw : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) (congrArg (V c main_arg0 : S100000x128.Idx → EReal) hx)
    (congrArg (V c main_arg2 : S128x128.Idx → EReal) hw)

/-- An index of the result is in point t's block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the result is in the block of the point its row falls in: row r is in block r / 2000. -/
theorem covered0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 50 := N_0
  let t : Fin cfg0.N := ⟨(i 0).val / 2000, by rw [hN]; omega⟩
  obtain ⟨-, -, -, -, e20, e21⟩ := block_indices0 t
  have ht : t.val = (i 0).val / 2000 := rfl
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region is x · W of the arrays as the region finds them. -/
theorem final0_fun (c : Dev nD) :
    (dat0 (F := Ideal) V c).arrAt 2 cfg0.N = xW (V c main_arg0) (V c main_arg2) :=
  (dat0 (F := Ideal) V c).arrAt_eq_of_cover 2 (xW (V c main_arg0) (V c main_arg2)) (fun t _ => flushed0_eq V c t) covered0

/-- Entry (r, q) of the result array after the region: ∑ k, x (r, k) · W (k, q). -/
theorem final0 (c : Dev nD) (r : Fin 100000) (q : Fin 128) :
    ((dat0 (F := Ideal) V c).arrAt 2 cfg0.N : S100000x128.Idx → EReal) (ix2 r q)
      = ∑ k : Fin 128, @HMul.hMul EReal EReal EReal _ (V c main_arg0 (ix2 r k)) (V c main_arg2 (ix2 k q)) := by
  rw [final0_fun V c]
  rfl

end Cert.KernelIdeal.RegVal

end
-- ==== Proof.KReg2.lean ====
/-
  The third pallas region of the idealized kernel program, in closed form.

  The region normalizes and rectifies: on agg : [100000, 128], with a scale and a shift in [128], it computes
  max (agg · scale + shift, 0), the scale and the shift read along the columns. Its grid has 50 points; point t
  stages rows 2000 t … 2000 t + 1999 of agg, the whole of the two vectors, and writes back the same rows of the
  result. The body is pointwise but for the two vectors, each recast to one row and repeated down the 2000 rows of
  the block: entry (p, q) of the block it leaves is max (agg_block (p, q) · scale q + shift q, 0). Entry (p, q) of
  the block of point t is entry (2000 t + p, q) of agg, the 50 blocks tile the rows of the result, and therefore the
  result array ends holding, at (r, q), max (agg (r, q) · scale q + shift q, 0).
-/
import proofs.«166404_j15324443312752_1_alg».proof.Proof.Gen.KernelIdeal.Frame
import proofs.«166404_j15324443312752_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Offsets (0, 0) and (0), however spelt. -/
theorem zero_offsets_rank2 : (![0, 0] : Fin 2 → Nat) = fun _ => 0 := funext fun a => by fin_cases a <;> rfl
theorem zero_offsets_rank1 : (![0] : Fin 1 → Nat) = fun _ => 0 := funext fun a => by fin_cases a; rfl

/-- The scaled, shifted and rectified array, entry by entry: entry (r, q) is max (agg (r, q) · scale q + shift q, 0). -/
abbrev scaleShiftRelu {n : ℕ} (agg : (⟨2, ![n, 128]⟩ : Shape).Idx → EReal) (scale shift : S128.Idx → EReal) :
    (⟨2, ![n, 128]⟩ : Shape).Idx → EReal :=
  fun i => max (agg i * scale (ix1 (i 1)) + shift (ix1 (i 1))) 0

/-- The body's block at an entry: the recasts of a block to its own shape are the identity, a vector recast to one
    row and repeated down the rows is read at the entry's column, and the zero word is 0. -/
theorem relu_block (x0 : Vec Ideal S2000x128 .f32) (s : Vec Ideal S128 .f32) (b : Vec Ideal S128 .f32) (j : S2000x128.Idx) :
    k2_pay1 x0 s b j = scaleShiftRelu (n := 2000) x0 s b j := by
  unfold k2_pay1
  show max (shapeCast S2000x128 x0 _ j * broadcastTo S2000x128 (shapeCast S1x128 (shapeCast S128 s _) _) _ j
      + broadcastTo S2000x128 (shapeCast S1x128 (shapeCast S128 b _) _) _ j) (Ideal.ofBits .f32 0x00000000#32) = _
  rw [shapeCast_self x0, shapeCast_self s, shapeCast_self b, Cert.LibDense.bias_row s, Cert.LibDense.bias_row b,
    Ideal.ofBits_zero_f32]

/-- The index maps of the region's four windows over its 50 points: the blocks of agg and of the result are at block
    row t, block column 0; each vector's one block is at 0. -/
theorem block_indices2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 :=
  (by decide +kernel : ∀ t : Fin grid2.N, _)

/-- What point t writes back is block t of the scaled, shifted and rectified array, of the arrays as the region
    finds them. -/
theorem flushed2_eq (c : Dev nD) (t : Fin cfg2.N) :
    (dat2 (F := Ideal) V c).flushed 3 t
      = ((cfg2.win 3).blk t).view.read (Elt Ideal)
          (scaleShiftRelu (n := 100000) (V c main_v46) (V c main_v57) (V c main_v59)) := by
  show (cfg2.win 3).cut (grid2.coords t) ((dat2 (F := Ideal) V c).after 3 t) = _
  rw [after2_3]
  unfold out2_3
  rw [View.canon_unit_zero zero_offsets_rank2]
  simp only [View.ld_unit_zero (S := S2000x128) zero_offsets_rank2, View.ld_unit_zero (S := S128) zero_offsets_rank1]
  obtain ⟨e00, e01, e1, e2, e30, e31⟩ := block_indices2 t
  funext j
  refine (relu_block (iblk2 V c 0 t) (iblk2 V c 1 t) (iblk2 V c 2 t) j).trans ?_
  show _ = scaleShiftRelu (n := 100000) (V c main_v46) (V c main_v57) (V c main_v59) (((cfg2.win 3).blk t).view.emb j)
  have hagg : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have hq : (j 1).val < 128 := idx2_lt1 j
  have hscale : ((cfg2.win 1).blk t).view.emb (ix1 (j 1)) = ix1 ((((cfg2.win 3).blk t).view.emb j) 1) := by
    funext a; apply Fin.ext
    match a with
    | ⟨0, _⟩ => show win2_1.index t (0 : Fin 1) * 128 + 1 * (j 1).val = win2_3.index t (1 : Fin 2) * 128 + 1 * (j 1).val; omega
  have hshift : ((cfg2.win 2).blk t).view.emb (ix1 (j 1)) = ix1 ((((cfg2.win 3).blk t).view.emb j) 1) := by
    funext a; apply Fin.ext
    match a with
    | ⟨0, _⟩ => show win2_2.index t (0 : Fin 1) * 128 + 1 * (j 1).val = win2_3.index t (1 : Fin 2) * 128 + 1 * (j 1).val; omega
  exact congrArg₂ max (congrArg₂ (· + ·) (congrArg₂ (· * ·) (congrArg (V c main_v46 : S100000x128.Idx → EReal) hagg)
    (congrArg (V c main_v57 : S128.Idx → EReal) hscale)) (congrArg (V c main_v59 : S128.Idx → EReal) hshift)) rfl

/-- An index of the result is in point t's block iff each coordinate is in the block's range on its axis. -/
theorem mem_block2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v60).slice (win2_3.rect t)).set ↔ _
  rw [View.set_slice_whole, Rect.mem_set_unit]
  exact Iff.rfl

/-- Every entry of the result is in the block of the point its row falls in: row r is in block r / 2000. -/
theorem covered2 (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 50 := N_2
  let t : Fin cfg2.N := ⟨(i 0).val / 2000, by rw [hN]; omega⟩
  obtain ⟨-, -, -, -, e30, e31⟩ := block_indices2 t
  have ht : t.val = (i 0).val / 2000 := rfl
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region is the scaled, shifted and rectified array, of the arrays as the region finds
    them. -/
theorem final2_fun (c : Dev nD) :
    (dat2 (F := Ideal) V c).arrAt 3 cfg2.N = scaleShiftRelu (n := 100000) (V c main_v46) (V c main_v57) (V c main_v59) :=
  (dat2 (F := Ideal) V c).arrAt_eq_of_cover 3 (scaleShiftRelu (n := 100000) (V c main_v46) (V c main_v57) (V c main_v59))
    (fun t _ => flushed2_eq V c t) covered2

/-- Entry (r, q) of the result array after the region: max (agg (r, q) · scale q + shift q, 0). -/
theorem final2 (c : Dev nD) (r : Fin 100000) (q : Fin 128) :
    ((dat2 (F := Ideal) V c).arrAt 3 cfg2.N : S100000x128.Idx → EReal) (ix2 r q)
      = max (@HAdd.hAdd EReal EReal EReal _ (@HMul.hMul EReal EReal EReal _ (V c main_v46 (ix2 r q)) (V c main_v57 (ix1 q)))
          (V c main_v59 (ix1 q))) 0 := by
  rw [final2_fun V c]

end Cert.KernelIdeal.RegVal

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.KRegR.lean ====
/-
  The column accumulator of the second kernel call, in closed form on the extended reals.

  The call walks the [100000,128] array in twenty blocks of 5000 consecutive rows, one block per grid point, in
  order. Its two [128] outputs keep one and the same block at every point, so their buffers are carried from point to
  point and written back once, after the last point. The first point resets both to the zero vector; every point then
  adds to the first output the sums of the columns of its block, and to the second the sums of the columns of the
  entrywise squares of its block.

  Hence after point `n` the first output holds, at column `q`, the sum of column `q` over the rows of blocks
  `0 … n`, and the second the sum of the squares of those entries (induction on the point). After the last point
  the rows of the twenty blocks are all 100000 rows: 100000 = 20 * 5000, and a sum over `Fin (20 * 5000)` is the
  sum over the block number of the sums inside each block. Addition on the extended reals is commutative and
  associative with 0 neutral, so neither the order of the partial sums nor their grouping matters and no entry
  needs to be finite.
-/
import proofs.«166404_j15324443312752_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«166404_j15324443312752_1_alg».proof.Proof.LibAxisSum
import proofs.«166404_j15324443312752_1_alg».proof.Proof.LibSumBlocks

noncomputable section

open Idealize.ShloMosaic Idealize.ShloMosaic.TcCoe Idealize.SL.Sem
open Idealize.ShloMosaic.Pipeline (Dat)

namespace Cert.KernelIdeal.RegVal1
open Cert.KernelIdeal Cert.KernelIdeal.Gen

variable {F : FTy → Type} [FloatOps F]

/-! ## What each point leaves in the two outputs, as payloads of the point's block -/

/-- The zero offsets of a rank-1 and of a rank-2 access, as constant functions. -/
theorem hz1 : (![0] : Fin 1 → Nat) = fun _ => 0 := funext fun a => by fin_cases a <;> rfl
theorem hz2 : (![0, 0] : Fin 2 → Nat) = fun _ => 0 := funext fun a => by fin_cases a <;> rfl

section Generic

/-- Later points: the first output's buffer, holding `xo1`, is left at the first payload of the block and `xo1`. -/
theorem out_B_1 (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (hc : ¬cond1_0 i) (x : Vec F S5000x128 .f32) (xo1 xo2 : Vec F S128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, View.ld_unit_zero (S := S5000x128) hz2, View.ld_unit_zero (S := S128) hz1]

/-- Later points: the second output's buffer, holding `xo2`, is left at the second payload of the block and `xo2`. -/
theorem out_B_2 (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (hc : ¬cond1_0 i) (x : Vec F S5000x128 .f32) (xo1 xo2 : Vec F S128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h3.read_unread, View.ld_unit_zero (S := S5000x128) hz2, View.ld_unit_zero (S := S128) hz1]

/-- First point: the first output is reset to the zero vector, read back, and left at the first payload of the block
    and that zero vector. -/
theorem out_A_1 (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (hc : cond1_0 i) (x : Vec F S5000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S128) hz1, View.readCov_unit_zero (S := S128) _ hz1]
  simp only [View.readAt_eq_ld, h1.read_unread, View.ld_unit_zero (S := S5000x128) hz2]

/-- First point: the same for the second output. -/
theorem out_A_2 (c : Dev nD) (i : grid1.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (hc : cond1_0 i) (x : Vec F S5000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S128) hz1, View.readCov_unit_zero (S := S128) _ hz1]
  simp only [View.readAt_eq_ld, h1.read_unread, View.ld_unit_zero (S := S5000x128) hz2]

variable (V : (c : Dev nD) → (b : Ref sig .tc) → Buf (Elt F) ((c : Thread nD τ).loc b))

/-- After the first point the two outputs hold the two payloads of the first block over the zero vectors. -/
theorem outs_zero (c : Dev nD) (h : 0 < cfg1.N) :
    outsAt1 V c 0 h = (k1_pay4 (iblk1 V c 0 ⟨0, h⟩) k1_pay1, k1_pay5 (iblk1 V c 0 ⟨0, h⟩) k1_pay2) := by
  rw [outsAt1_A V c ⟨0, h⟩ rfl]
  exact Prod.ext
    (out_A_1 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr rfl) (iblk1 V c 0 ⟨0, h⟩))
    (out_A_2 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr rfl) (iblk1 V c 0 ⟨0, h⟩))

/-- After a later point the two outputs hold the two payloads of that point's block over what the point before left. -/
theorem outs_succ (c : Dev nD) (n : ℕ) (h : n + 1 < cfg1.N) :
    outsAt1 V c (n + 1) h
      = (k1_pay4 (iblk1 V c 0 ⟨n + 1, h⟩) (outsAt1 V c n (Nat.lt_of_succ_lt h)).1,
         k1_pay5 (iblk1 V c 0 ⟨n + 1, h⟩) (outsAt1 V c n (Nat.lt_of_succ_lt h)).2) := by
  have hN : cfg1.N = 20 := N_1
  have hB : ¬(⟨n + 1, h⟩ : Fin cfg1.N).val % 20 = 0 := by dsimp only; omega
  rw [outsAt1_B V c ⟨n + 1, h⟩ hB]
  exact Prod.ext
    (out_B_1 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
      (fun hh => hB ((hcond1_0 ⟨n + 1, h⟩).mp hh)) (iblk1 V c 0 ⟨n + 1, h⟩)
      (outsAt1 V c n (Nat.lt_of_succ_lt h)).1 (outsAt1 V c n (Nat.lt_of_succ_lt h)).2)
    (out_B_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
      (fun hh => hB ((hcond1_0 ⟨n + 1, h⟩).mp hh)) (iblk1 V c 0 ⟨n + 1, h⟩)
      (outsAt1 V c n (Nat.lt_of_succ_lt h)).1 (outsAt1 V c n (Nat.lt_of_succ_lt h)).2)

/-! ## The input's block at a point, and the running sums -/

section Running
open Idealize.ShloMosaic.ValueIdx

/-- The input window's block index at point `t` is `(t, 0)`. -/
theorem idx_fact : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem row_lt (t : Fin cfg1.N) (r : Fin 5000) : t.val * 5000 + r.val < 100000 := by
  have hN : t.val < 20 := lt_of_lt_of_eq t.isLt (show cfg1.N = 20 from N_1)
  have := r.isLt
  omega

/-- Row `r` of the block at point `t` is row `5000 t + r` of the array. -/
theorem iblk_apply (c : Dev nD) (t : Fin cfg1.N) (r : Fin 5000) (q : Fin 128) :
    (iblk1 V c 0 t : Vec F S5000x128 .f32) (ix2 r q)
      = (V c main_v46 : Vec F S100000x128 .f32) (ix2 ⟨t.val * 5000 + r.val, row_lt t r⟩ q) := by
  unfold iblk1
  rw [View.read_apply]
  show V c main_v46 _ = V c main_v46 _
  congr 1
  funext a
  apply Fin.ext
  match a with
  | ⟨0, _⟩ => show win1_0.index t 0 * 5000 + 1 * r.val = t.val * 5000 + r.val; rw [(idx_fact t).1]; omega
  | ⟨1, _⟩ => show win1_0.index t 1 * 128 + 1 * q.val = q.val; rw [(idx_fact t).2]; omega

end Running

/-! ## The output arrays after the region -/

section Final
open Idealize.ShloMosaic.ValueIdx

/-- The last grid point, the only one after which the outputs are written back. -/
def tLast : Fin cfg1.N := ⟨19, by rw [show cfg1.N = 20 from N_1]; decide⟩

/-- Both output windows sit at block 0 of their arrays at every point, and that block is all 128 entries. -/
theorem out_idx : ∀ t : Fin cfg1.N,
    (win1_1.index t (0 : Fin 1) = 0 ∧ win1_1.xsize (grid1.coords t) (0 : Fin 1) = 128)
      ∧ (win1_2.index t (0 : Fin 1) = 0 ∧ win1_2.xsize (grid1.coords t) (0 : Fin 1) = 128) :=
  (by decide +kernel : ∀ t : Fin grid1.N,
    (win1_1.index t (0 : Fin 1) = 0 ∧ win1_1.xsize (grid1.coords t) (0 : Fin 1) = 128)
      ∧ (win1_2.index t (0 : Fin 1) = 0 ∧ win1_2.xsize (grid1.coords t) (0 : Fin 1) = 128))

/-- What the last point leaves in each output's buffer, as contents of the output array (its one block is the array). -/
abbrev res1 (c : Dev nD) : Buf (Elt F) ((c : Thread nD τ).loc main_v47_0) := (outsAt1 V c tLast.val tLast.isLt).1
abbrev res2 (c : Dev nD) : Buf (Elt F) ((c : Thread nD τ).loc main_v47_1) := (outsAt1 V c tLast.val tLast.isLt).2

/-- The one write-back of the first output, after the last point, writes what that point left. -/
theorem flushed1_eq (c : Dev nD) (t : Fin cfg1.N) (hf : (cfg1.win 1).flush t = true) :
    (dat1 V c).flushed 1 t = ((cfg1.win 1).blk t).view.read (Elt F) (res1 V c) := by
  have hN : cfg1.N = 20 := N_1
  have h19 : t.val = 19 := by have := (flush1_1 t).mp hf; have := t.isLt; omega
  obtain rfl : t = tLast := Fin.ext h19
  show (cfg1.win 1).cut (grid1.coords tLast) ((dat1 V c).after 1 tLast) = _
  rw [after1_1]
  have hz' : (fun a => win1_1.index tLast a * main_v47_0.ty.shape.size a) = fun _ => 0 :=
    funext fun a => by
      match a with
      | ⟨0, _⟩ => show win1_1.index tLast 0 * 128 = 0; rw [(out_idx tLast).1.1]
  exact (Memref.read_access_unit_zero (Elt F) main_v47_0 hz' (fun a => by rw [congrFun hz' a]; simp) (res1 V c)).symm

theorem flushed2_eq (c : Dev nD) (t : Fin cfg1.N) (hf : (cfg1.win 2).flush t = true) :
    (dat1 V c).flushed 2 t = ((cfg1.win 2).blk t).view.read (Elt F) (res2 V c) := by
  have hN : cfg1.N = 20 := N_1
  have h19 : t.val = 19 := by have := (flush1_2 t).mp hf; have := t.isLt; omega
  obtain rfl : t = tLast := Fin.ext h19
  show (cfg1.win 2).cut (grid1.coords tLast) ((dat1 V c).after 2 tLast) = _
  rw [after1_2]
  have hz' : (fun a => win1_2.index tLast a * main_v47_1.ty.shape.size a) = fun _ => 0 :=
    funext fun a => by
      match a with
      | ⟨0, _⟩ => show win1_2.index tLast 0 * 128 = 0; rw [(out_idx tLast).2.1]
  exact (Memref.read_access_unit_zero (Elt F) main_v47_1 hz' (fun a => by rw [congrFun hz' a]; simp) (res2 V c)).symm

/-- So the first output array ends holding what the last point left: that point's block covers it. -/
theorem final1 (c : Dev nD) : (dat1 V c).arrAt 1 cfg1.N = res1 V c :=
  (dat1 V c).arrAt_eq_of_cover 1 (res1 V c) (flushed1_eq V c) fun i =>
    ⟨tLast, (flush1_1 tLast).mpr rfl, by
      show i ∈ ((View.whole main_v47_0).slice (win1_1.rect tLast)).set
      rw [View.set_slice_whole, Rect.mem_set_unit]
      intro a
      have h0 : (i 0 : Nat) < 128 := (i 0).isLt
      match a with
      | ⟨0, _⟩ =>
        show win1_1.index tLast 0 * win1_1.size 0 ≤ (i 0 : Nat)
          ∧ (i 0 : Nat) < win1_1.index tLast 0 * win1_1.size 0 + win1_1.xsize (grid1.coords tLast) 0
        rw [(out_idx tLast).1.1, (out_idx tLast).1.2]; omega⟩

theorem final2 (c : Dev nD) : (dat1 V c).arrAt 2 cfg1.N = res2 V c :=
  (dat1 V c).arrAt_eq_of_cover 2 (res2 V c) (flushed2_eq V c) fun i =>
    ⟨tLast, (flush1_2 tLast).mpr rfl, by
      show i ∈ ((View.whole main_v47_1).slice (win1_2.rect tLast)).set
      rw [View.set_slice_whole, Rect.mem_set_unit]
      intro a
      have h0 : (i 0 : Nat) < 128 := (i 0).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [(out_idx tLast).2.1, (out_idx tLast).2.2]; omega⟩

end Final

end Generic

/-! ## The payloads at a column, on the extended reals -/

section IdealValues
open Idealize.ShloMosaic.ValueIdx

/-- The reset vector is zero at every column. -/
theorem pay1_apply (q : Fin 128) : k1_pay1 (F := Ideal) (ix1 q) = 0 := by
  unfold k1_pay1
  exact Ideal.ofBits_zero_f32

theorem pay2_apply (q : Fin 128) : k1_pay2 (F := Ideal) (ix1 q) = 0 := by
  unfold k1_pay2
  exact Ideal.ofBits_zero_f32

/-- The first payload at column `q`: the running value plus the sum of the block's column `q`. -/
theorem pay4_apply (x : Vec Ideal S5000x128 .f32) (v : Vec Ideal S128 .f32) (q : Fin 128) :
    k1_pay4 (F := Ideal) x v (ix1 q) = v (ix1 q) + ∑ r : Fin 5000, x (ix2 r q) := by
  unfold k1_pay4 k1_pay3
  dsimp only
  refine (addf_apply _ _ (ix1 q)).trans ?_
  refine congrArg₂ (· + ·) (congrFun (shapeCast_self v shapeCasts_S128_S128) (ix1 q)) ?_
  refine (Cert.LibAxisSum.sum_first _ _ _ _ _ q).trans ?_
  exact Finset.sum_congr rfl fun r _ => congrFun (shapeCast_self x shapeCasts_S5000x128_S5000x128) (ix2 r q)

/-- The second payload at column `q`: the running value plus the sum of the squares of the block's column `q`. -/
theorem pay5_apply (x : Vec Ideal S5000x128 .f32) (v : Vec Ideal S128 .f32) (q : Fin 128) :
    k1_pay5 (F := Ideal) x v (ix1 q) = v (ix1 q) + ∑ r : Fin 5000, x (ix2 r q) * x (ix2 r q) := by
  unfold k1_pay5 k1_pay3
  dsimp only
  refine (addf_apply _ _ (ix1 q)).trans ?_
  refine congrArg₂ (· + ·) (congrFun (shapeCast_self v shapeCasts_S128_S128) (ix1 q)) ?_
  refine (Cert.LibAxisSum.sum_first _ _ _ _ _ q).trans ?_
  refine Finset.sum_congr rfl fun r _ => ?_
  refine (mulf_apply _ _ (ix2 r q)).trans ?_
  rw [shapeCast_self]

end IdealValues

/-! ## The running sums, on the extended reals -/

section Sums
open Idealize.ShloMosaic.ValueIdx

/-- A sum over twenty blocks of five thousand consecutive rows is the sum over all hundred thousand rows. -/
theorem sum_rows {M : Type} [AddCommMonoid M] (g : Fin 100000 → M) (G : ℕ → M) (hG : ∀ (k : ℕ) (h : k < 100000), G k = g ⟨k, h⟩) :
    ∑ s ∈ Finset.range 20, ∑ y : Fin 5000, G (s * 5000 + y.val) = ∑ r : Fin 100000, g r := by
  rw [Cert.SumBlocks.sum_fin_blocks 20 5000 (by norm_num) g]
  exact Cert.SumBlocks.sum_range_eq_sum_fin 20 _ _ fun k => Finset.sum_congr rfl fun y _ => hG _ _

/-- Column `q` of the array as a function of the row number (zero past the last row). -/
def colAt (A : Vec Ideal S100000x128 .f32) (q : Fin 128) (k : ℕ) : Ideal .f32 :=
  if h : k < 100000 then A (ix2 ⟨k, h⟩ q) else 0

theorem colAt_lt (A : Vec Ideal S100000x128 .f32) (q : Fin 128) (k : ℕ) (h : k < 100000) :
    colAt A q k = A (ix2 ⟨k, h⟩ q) := dif_pos h

variable (V : (c : Dev nD) → (b : Ref sig .tc) → Buf (Elt Ideal) ((c : Thread nD τ).loc b))

/-- Row `y` of the block at point `t`, in column `q`, is entry `5000 t + y` of that column. -/
theorem blk_col (c : Dev nD) (t : Fin cfg1.N) (y : Fin 5000) (q : Fin 128) :
    (iblk1 V c 0 t : Vec Ideal S5000x128 .f32) (ix2 y q) = colAt (V c main_v46) q (t.val * 5000 + y.val) :=
  (iblk_apply V c t y q).trans (colAt_lt _ q _ (row_lt t y)).symm

/-- After point `n` the first output holds, at column `q`, the sum of that column over the rows of blocks `0 … n`. -/
theorem inv_sum (c : Dev nD) (q : Fin 128) : ∀ (n : ℕ) (h : n < cfg1.N),
    (outsAt1 V c n h).1 (ix1 q)
      = ∑ s ∈ Finset.range (n + 1), ∑ y : Fin 5000, colAt (V c main_v46) q (s * 5000 + y.val)
  | 0, h => by
    rw [outs_zero V c h]
    refine (pay4_apply (iblk1 V c 0 ⟨0, h⟩) (k1_pay1 (F := Ideal)) q).trans ?_
    rw [pay1_apply, zero_add, Finset.sum_range_succ, Finset.sum_range_zero, zero_add]
    exact Finset.sum_congr rfl fun y _ => blk_col V c ⟨0, h⟩ y q
  | n + 1, h => by
    rw [outs_succ V c n h]
    refine (pay4_apply (iblk1 V c 0 ⟨n + 1, h⟩) (outsAt1 V c n (Nat.lt_of_succ_lt h)).1 q).trans ?_
    rw [inv_sum c q n (Nat.lt_of_succ_lt h), Finset.sum_range_succ (n := n + 1)]
    exact congrArg _ (Finset.sum_congr rfl fun y _ => blk_col V c ⟨n + 1, h⟩ y q)

/-- After point `n` the second output holds, at column `q`, the sum of the squares of that column over the same rows. -/
theorem inv_sq (c : Dev nD) (q : Fin 128) : ∀ (n : ℕ) (h : n < cfg1.N),
    (outsAt1 V c n h).2 (ix1 q)
      = ∑ s ∈ Finset.range (n + 1), ∑ y : Fin 5000,
          colAt (V c main_v46) q (s * 5000 + y.val) * colAt (V c main_v46) q (s * 5000 + y.val)
  | 0, h => by
    rw [outs_zero V c h]
    refine (pay5_apply (iblk1 V c 0 ⟨0, h⟩) (k1_pay2 (F := Ideal)) q).trans ?_
    rw [pay2_apply, zero_add, Finset.sum_range_succ, Finset.sum_range_zero, zero_add]
    exact Finset.sum_congr rfl fun y _ => by rw [blk_col V c ⟨0, h⟩ y q]
  | n + 1, h => by
    rw [outs_succ V c n h]
    refine (pay5_apply (iblk1 V c 0 ⟨n + 1, h⟩) (outsAt1 V c n (Nat.lt_of_succ_lt h)).2 q).trans ?_
    rw [inv_sq c q n (Nat.lt_of_succ_lt h), Finset.sum_range_succ (n := n + 1)]
    exact congrArg _ (Finset.sum_congr rfl fun y _ => by rw [blk_col V c ⟨n + 1, h⟩ y q])

end Sums
section Closed
open Idealize.ShloMosaic.ValueIdx

variable (V : (c : Dev nD) → (b : Ref sig .tc) → Buf (Elt Ideal) ((c : Thread nD τ).loc b))

/-- The region's input array, typed at its literal shape (so that its entries are extended reals by their type). -/
abbrev inArr (c : Dev nD) : Vec Ideal S100000x128 .f32 := V c main_v46

/-- The first output array ends holding the column sums of the input array. -/
theorem final1_sum (c : Dev nD) (q : Fin 128) :
    ((Gen.dat1 (F := Ideal) V c).arrAt 1 cfg1.N : Vec Ideal S128 .f32) (ix1 q)
      = ∑ r : Fin 100000, inArr V c (ix2 r q) := by
  refine (congrFun (final1 V c) (ix1 q)).trans ?_
  refine (inv_sum V c q tLast.val tLast.isLt).trans ?_
  exact sum_rows (fun r => inArr V c (ix2 r q)) (colAt (inArr V c) q) (fun k h => colAt_lt _ q k h)

/-- The second output array ends holding the column sums of the squares of the input array. -/
theorem final1_sq (c : Dev nD) (q : Fin 128) :
    ((Gen.dat1 (F := Ideal) V c).arrAt 2 cfg1.N : Vec Ideal S128 .f32) (ix1 q)
      = ∑ r : Fin 100000, inArr V c (ix2 r q) * inArr V c (ix2 r q) := by
  refine (congrFun (final2 V c) (ix1 q)).trans ?_
  refine (inv_sq V c q tLast.val tLast.isLt).trans ?_
  exact sum_rows (fun r => inArr V c (ix2 r q) * inArr V c (ix2 r q))
    (fun k => colAt (inArr V c) q k * colAt (inArr V c) q k) (fun k h => by rw [colAt_lt _ q k h])

end Closed

end Cert.KernelIdeal.RegVal1
end
-- ==== Proof.KFold.lean ====
/-
  The kernel program's result as a function of its arguments. Reading the fold of the launch memory backwards from
  the result: the affine region leaves `max (agg · scale + shift) 0` entry by entry; scale and shift are the host
  arithmetic on the two column sums the statistics region leaves (the sums of `agg` and of its squares down each
  column); `agg` is the graph aggregation of the projection region's product `x · W`, untouched since it was computed.
-/
import proofs.«166404_j15324443312752_1_alg».proof.Proof.KRun
import proofs.«166404_j15324443312752_1_alg».proof.Proof.KGlue
import proofs.«166404_j15324443312752_1_alg».proof.Proof.KTail
import proofs.«166404_j15324443312752_1_alg».proof.Proof.KReg0
import proofs.«166404_j15324443312752_1_alg».proof.Proof.KReg2
import proofs.«166404_j15324443312752_1_alg».proof.Proof.KRegR

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The arguments, read at each boundary they are needed at -/

theorem W1_edges : W1 m ρ c (Proc.devRef .tc main_arg1) = m ((c : Thread nD τ).loc main_arg1) := W1_of_ne m ρ c main_arg1 (by decide)
theorem W1_bias : W1 m ρ c (Proc.devRef .tc main_arg3) = m ((c : Thread nD τ).loc main_arg3) := W1_of_ne m ρ c main_arg3 (by decide)

/-- The projection region's output array is the product of its two input arrays. -/
theorem W1_proj : W1 m ρ c (Proc.devRef .tc main_v0)
    = RegVal.xW (m ((c : Thread nD τ).loc main_arg0)) (m ((c : Thread nD τ).loc main_arg2)) :=
  (W1_arr m ρ c 2).trans (RegVal.final0_fun (V0 m ρ) c)

/-- The aggregation, as the statistics region finds it. -/
def agg : FVec Ideal S100000x128 .f32 :=
  Glue.aggOf (RegVal.xW (m ((c : Thread nD τ).loc main_arg0)) (m ((c : Thread nD τ).loc main_arg2)))
    (m ((c : Thread nD τ).loc main_arg1)) (m ((c : Thread nD τ).loc main_arg3))

theorem W4_agg : W4 m ρ c (Proc.devRef .tc main_v46) = agg m c := by
  show StableHlo.after hostOps1_2 (StableHlo.after hostOps1_1 (StableHlo.after hostOps1 (W1 m ρ c))) (Proc.devRef .tc main_v46) = _
  rw [Glue.agg_eq, W1_proj, W1_edges, W1_bias]
  rfl

/-! ## The statistics region: the aggregation is its input, the two column sums its outputs -/

theorem W5_agg : W5 m ρ c (Proc.devRef .tc main_v46) = agg m c :=
  (W5_arr m ρ c 0).trans ((((dat1 (V4 m ρ) c).arrAt_in 0 rfl _).trans (A_eq1 (V4 m ρ) c 0)).trans (W4_agg m ρ c))

/-- The sum of each column. -/
def colSum (a : FVec Ideal S100000x128 .f32) : FVec Ideal S128 .f32 := fun j => ∑ r : Fin 100000, a (ix2 r (j 0))
/-- The sum of the squares of each column. -/
def colSq (a : FVec Ideal S100000x128 .f32) : FVec Ideal S128 .f32 := fun j => ∑ r : Fin 100000, a (ix2 r (j 0)) * a (ix2 r (j 0))

theorem W5_sum : W5 m ρ c (Proc.devRef .tc main_v47_0) = colSum (agg m c) := by
  refine (W5_arr m ρ c 1).trans (funext fun j => ?_)
  obtain ⟨q, rfl⟩ : ∃ q : Fin 128, j = ix1 q := ⟨j 0, eq_ix1 j⟩
  refine (RegVal1.final1_sum (V4 m ρ) c q).trans ?_
  rw [show RegVal1.inArr (V4 m ρ) c = agg m c from W4_agg m ρ c]
  rfl

theorem W5_sq : W5 m ρ c (Proc.devRef .tc main_v47_1) = colSq (agg m c) := by
  refine (W5_arr m ρ c 2).trans (funext fun j => ?_)
  obtain ⟨q, rfl⟩ : ∃ q : Fin 128, j = ix1 q := ⟨j 0, eq_ix1 j⟩
  refine (RegVal1.final1_sq (V4 m ρ) c q).trans ?_
  rw [show RegVal1.inArr (V4 m ρ) c = agg m c from W4_agg m ρ c]
  rfl

theorem W5_gamma : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by
        show StableHlo.after hostOps1_2 (W3 m ρ c) (Proc.devRef .tc main_arg4) = _; kept_by_stretch
    _ = W2 m ρ c (Proc.devRef .tc main_arg4) := by
        show StableHlo.after hostOps1_1 (W2 m ρ c) (Proc.devRef .tc main_arg4) = _; kept_by_stretch
    _ = W1 m ρ c (Proc.devRef .tc main_arg4) := by
        show StableHlo.after hostOps1 (W1 m ρ c) (Proc.devRef .tc main_arg4) = _; kept_by_stretch
    _ = m ((c : Thread nD τ).loc main_arg4) := W1_of_ne m ρ c main_arg4 (by decide)

theorem W5_beta : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by
        show StableHlo.after hostOps1_2 (W3 m ρ c) (Proc.devRef .tc main_arg5) = _; kept_by_stretch
    _ = W2 m ρ c (Proc.devRef .tc main_arg5) := by
        show StableHlo.after hostOps1_1 (W2 m ρ c) (Proc.devRef .tc main_arg5) = _; kept_by_stretch
    _ = W1 m ρ c (Proc.devRef .tc main_arg5) := by
        show StableHlo.after hostOps1 (W1 m ρ c) (Proc.devRef .tc main_arg5) = _; kept_by_stretch
    _ = m ((c : Thread nD τ).loc main_arg5) := W1_of_ne m ρ c main_arg5 (by decide)

/-! ## The host arithmetic between the statistics and the affine region -/

section
variable (W : Valuation τ sig (Elt Ideal))
theorem t_scale : StableHlo.after (hostOps2 (F := Ideal)) W (Proc.devRef .tc main_v57)
    = Tail.scaleK (W (Proc.devRef .tc main_v47_0)) (W (Proc.devRef .tc main_v47_1)) (W (Proc.devRef .tc main_arg4)) := by
  after_results_simp <;> rfl
theorem t_shift : StableHlo.after (hostOps2 (F := Ideal)) W (Proc.devRef .tc main_v59)
    = Tail.shiftK (W (Proc.devRef .tc main_v47_0)) (W (Proc.devRef .tc main_v47_1)) (W (Proc.devRef .tc main_arg4)) (W (Proc.devRef .tc main_arg5)) := by
  after_results_simp <;> rfl
theorem t_agg : StableHlo.after (hostOps2 (F := Ideal)) W (Proc.devRef .tc main_v46) = W (Proc.devRef .tc main_v46) := by kept_by_stretch
end

/-- The scale vector of the affine region. -/
def scale : FVec Ideal S128 .f32 :=
  Tail.scaleK (colSum (agg m c)) (colSq (agg m c)) (m ((c : Thread nD τ).loc main_arg4))
/-- The shift vector of the affine region. -/
def shift : FVec Ideal S128 .f32 :=
  Tail.shiftK (colSum (agg m c)) (colSq (agg m c)) (m ((c : Thread nD τ).loc main_arg4)) (m ((c : Thread nD τ).loc main_arg5))

theorem V6_agg : V6 m ρ c main_v46 = agg m c := (t_agg (W5 m ρ c)).trans (W5_agg m ρ c)
theorem V6_scale : V6 m ρ c main_v57 = scale m c := by
  refine (t_scale (W5 m ρ c)).trans ?_
  rw [W5_sum, W5_sq, W5_gamma]; rfl
theorem V6_shift : V6 m ρ c main_v59 = shift m c := by
  refine (t_shift (W5 m ρ c)).trans ?_
  rw [W5_sum, W5_sq, W5_gamma, W5_beta]; rfl

/-! ## The affine region, and the result -/

/-- The result buffer at the last boundary: `max (agg · scale + shift) 0`, entry by entry. -/
theorem result_eq : W7 m ρ c (Proc.devRef .tc main_v60) = RegVal.scaleShiftRelu (agg m c) (scale m c) (shift m c) := by
  refine (W7_arr m ρ c 3).trans ((RegVal.final2_fun (V6 m ρ) c).trans ?_)
  rw [V6_agg, V6_scale, V6_shift]

/-- The program's run: the result buffer ends at `max (agg · scale + shift) 0`, the arguments as launched. -/
theorem run : θ_run defs (onTc (τ := τ) (main (F := Ideal))) ⟨m, fun _ => 0, ρ⟩ (fun r => ∀ c : Dev nD,
      r.2.mem ((c.tc : Thread nD τ).loc main_v60) = RegVal.scaleShiftRelu (agg m c) (scale m c) (shift m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (RunVal.run_fold m ρ)

end Cert.KernelIdeal.Fold

end
-- ==== Proof.RefDefs.lean ====
import proofs.«166404_j15324443312752_1_alg».proof.Proof.Gen.ReferenceIdeal
import Idealize.ShloMosaic.PureOps.Ideal.Laws

noncomputable section

namespace Cert.ReferenceIdeal.RefRun

open Cert.ReferenceIdeal Cert.ReferenceIdeal.Gen Idealize.ShloMosaic

/-! ## The composed terms

@main's result as a function of its arguments, cut at two values: `%7` (the dense product, an argument of `glue`)
and `%46` (the aggregated features plus bias: `glue`'s value, `tail`'s argument). -/

/-- `%3`: the 1600000 edge sources (row 0 of the edge table) followed by the self loops `0 … 99999`. -/
def srcs (e : IVec S2x1600000 32) : IVec S1700000 32 :=
  concatenate S1700000 0 [⟨S1600000, (shapeCast S1600000 (extractStridedSlice S1x1600000 ![0, 0] e slices_S2x1600000_S1x1600000_0_0) shapeCasts_S1x1600000_S1600000)⟩, ⟨S100000, (iotaInDim S100000 32 0)⟩] concatenates_S1600000_S100000_S1700000_d0

/-- `%6`: the 1600000 edge targets (row 1 of the edge table) followed by the self loops `0 … 99999`. -/
def dsts (e : IVec S2x1600000 32) : IVec S1700000 32 :=
  concatenate S1700000 0 [⟨S1600000, (shapeCast S1600000 (extractStridedSlice S1x1600000 ![1, 0] e slices_S2x1600000_S1x1600000_1_0) shapeCasts_S1x1600000_S1600000)⟩, ⟨S100000, (iotaInDim S100000 32 0)⟩] concatenates_S1600000_S100000_S1700000_d0

/-- `%21`, `%28`, `%36`: an index vector with each negative entry moved up by 100000 (indexing from the end), as
    the one-column index table of a gather. -/
def wrapCol (i : IVec S1700000 32) : IVec S1700000x1 32 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- `%11`: the in-degree of every node, self loop included: ones scatter-added at the targets. -/
def deg (e : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dsts e)) (broadcastInDim S1700000 ![] bcast_S_S1700000 (constant S_ .f32 0x3F800000#32))

/-- `%15`: `deg ^ (-1/2)` where the degree is positive, zero elsewhere (the `_where` call). -/
def dinv (e : IVec S2x1600000 32) : FVec Ideal S100000 .f32 :=
  select (cmpf .ogt (deg e) (broadcastInDim S100000 ![] bcast_S_S100000 (constant S_ .f32 0x00000000#32))) (Host.rsqrt (deg e)) (broadcastInDim S100000 ![] bcast_S_S100000 (constant S_ .f32 0x00000000#32))

/-- `%30`: per edge, the product of `dinv` at its source and at its target. -/
def coef (e : IVec S2x1600000 32) : FVec Ideal S1700000 .f32 :=
  mulf (Host.gather gather_S100000_S1700000x1_S1700000_n_0_n_n_0_1_1 (dinv e) (wrapCol (srcs e))) (Host.gather gather_S100000_S1700000x1_S1700000_n_0_n_n_0_1_1 (dinv e) (wrapCol (dsts e)))

/-- `%46` of @main as a pure function of `%7` (the dot_general's result), `%arg1` and `%arg3`: the composed term of
    operations `%0`-`%6` and `%8`-`%46` — the rows of `h` gathered at the sources, scaled by `coef`, scatter-added at
    the targets into zeros, plus the bias broadcast along the rows. -/
def glue (h : FVec Ideal S100000x128 .f32) (e : IVec S2x1600000 32) (b : FVec Ideal S128 .f32) : FVec Ideal S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dsts e)) (mulf (Host.gather gather_S100000x128_S1700000x1_S1700000x128_1_0_n_n_0_1_1128 h (wrapCol (srcs e))) (broadcastInDim S1700000x128 ![0, 1] bcast_S1700000x1_S1700000x128_0_1 (broadcastInDim S1700000x1 ![0] bcast_S1700000_S1700000x1_0 (coef e))))) (broadcastInDim S100000x128 ![0, 1] bcast_S1x128_S100000x128_0_1 (broadcastInDim S1x128 ![1] bcast_S128_S1x128_1 b))

/-- `%49`: the column means (the column sums over 100000). -/
def colMean (a : FVec Ideal S100000x128 .f32) : FVec Ideal S128 .f32 :=
  Host.divf (Host.reduceAdd a (constant S_ .f32 0x00000000#32) reducesTo_S100000x128_S128_d0 h_S_) (broadcastInDim S128 ![] bcast_S_S128 (constant S_ .f32 0x47C35000#32))

/-- `%50`, the `_var` call with its nested `_where_0`: the column sums of the squared deviations from the column
    mean over `100000 - 0`, kept where that divisor is positive and the quiet-NaN word elsewhere. -/
def colVar (a : FVec Ideal S100000x128 .f32) : FVec Ideal S128 .f32 :=
  select (broadcastInDim S128 ![] bcast_S_S128 (cmpf .ogt (subf (constant S_ .f32 0x47C35000#32) (sitofp (F := Ideal) .f32 (constantI S_ 32 0#32))) (constant S_ .f32 0x00000000#32))) (Host.divf (Host.reduceAdd (mulf (subf a (broadcastInDim S100000x128 ![0, 1] bcast_S1x128_S100000x128_0_1 (Host.divf (broadcastInDim S1x128 ![1] bcast_S128_S1x128_1 (Host.reduceAdd a (constant S_ .f32 0x00000000#32) reducesTo_S100000x128_S128_d0 h_S_)) (broadcastInDim S1x128 ![] bcast_S_S1x128 (constant S_ .f32 0x47C35000#32))))) (subf a (broadcastInDim S100000x128 ![0, 1] bcast_S1x128_S100000x128_0_1 (Host.divf (broadcastInDim S1x128 ![1] bcast_S128_S1x128_1 (Host.reduceAdd a (constant S_ .f32 0x00000000#32) reducesTo_S100000x128_S128_d0 h_S_)) (broadcastInDim S1x128 ![] bcast_S_S1x128 (constant S_ .f32 0x47C35000#32)))))) (constant S_ .f32 0x00000000#32) reducesTo_S100000x128_S128_d0 h_S_) (broadcastInDim S128 ![] bcast_S_S128 (subf (constant S_ .f32 0x47C35000#32) (sitofp (F := Ideal) .f32 (constantI S_ 32 0#32))))) (broadcastInDim S128 ![] bcast_S_S128 (constant S_ .f32 0x7FC00000#32))

/-- `%66` of @main as a pure function of `%46`, `%arg4` and `%arg5`: operations `%47`-`%66` — centre by the column
    mean, scale by `(colVar + ε) ^ (-1/2)`, the affine map `· * g + bt` along the rows, the maximum with zero. -/
def tail (a : FVec Ideal S100000x128 .f32) (g bt : FVec Ideal S128 .f32) : FVec Ideal S100000x128 .f32 :=
  maximumf (addf (mulf (mulf (subf a (broadcastInDim S100000x128 ![0, 1] bcast_S1x128_S100000x128_0_1 (broadcastInDim S1x128 ![1] bcast_S128_S1x128_1 (colMean a)))) (broadcastInDim S100000x128 ![0, 1] bcast_S1x128_S100000x128_0_1 (broadcastInDim S1x128 ![1] bcast_S128_S1x128_1 (Host.rsqrt (addf (colVar a) (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 bt))) (broadcastInDim S100000x128 ![] bcast_S_S100000x128 (constant S_ .f32 0x00000000#32))

end Cert.ReferenceIdeal.RefRun

end
-- ==== Proof.RefRun.lean ====
import proofs.«166404_j15324443312752_1_alg».proof.Proof.Gen.ReferenceIdeal
import proofs.«166404_j15324443312752_1_alg».proof.Proof.RefDefs
import Idealize.ShloMosaic.Lib.StableHlo.Run
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 107 operations in order as its text has them, the three calls unfolded at their call sites over the
    calls' buffer records (the callees' operations over typed references). -/
abbrev opsT : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v46 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v46 : TRef sig ⟨S100000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v46 main_v52 main_v53 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (mulf : (⟨S100000x128, .f32⟩ : BufTy).Contents (Elt F) → (⟨S100000x128, .f32⟩ : BufTy).Contents (Elt F) → (⟨S100000x128, .f32⟩ : BufTy).Contents (Elt F)),
    unary main_arg4 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (mulf : (⟨S100000x128, .f32⟩ : BufTy).Contents (Elt F) → (⟨S100000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v65 : TRef sig ⟨S100000x128, .f32⟩) main_call2.v0 main_call2.v1 maximumf ]

/-- The same 107 operations, every one over the plain references: `_where` is three operations (the scalar converted
    to its own type, broadcast, the select); `_var` is twenty of its own (column sum, mean, centred squares, their
    column sum, the divisor `100000 - ddof` and the test that it is positive) and, nested in it, `_where_0`'s three;
    `relu` is three (the zero, its broadcast, the maximum). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    unary main_cst_2 main_call0_v0 ((id) : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v13 main_v14 main_call0_v1 main_v15 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    nullary main_call1_cst (constant S_ .f32 0x00000000#32),
    binary main_v46 main_call1_cst main_call1_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v0 main_call1_v1 ((broadcastInDim S1x128 ![1] bcast_S128_S1x128_1) : (⟨S128, .f32⟩ : BufTy).Contents (Elt F) → (⟨S1x128, .f32⟩ : BufTy).Contents (Elt F)),
    nullary main_call1_cst_0 (constant S_ .f32 0x47C35000#32),
    unary main_call1_cst_0 main_call1_v2 ((broadcastInDim S1x128 ![] bcast_S_S1x128) : (⟨S_, .f32⟩ : BufTy).Contents (Elt F) → (⟨S1x128, .f32⟩ : BufTy).Contents (Elt F)),
    binary main_call1_v1 main_call1_v2 main_call1_v3 ((Host.divf) : (⟨S1x128, .f32⟩ : BufTy).Contents (Elt F) → (⟨S1x128, .f32⟩ : BufTy).Contents (Elt F) → (⟨S1x128, .f32⟩ : BufTy).Contents (Elt F)),
    unary main_call1_v3 main_call1_v4 ((broadcastInDim S100000x128 ![0, 1] bcast_S1x128_S100000x128_0_1) : (⟨S1x128, .f32⟩ : BufTy).Contents (Elt F) → (⟨S100000x128, .f32⟩ : BufTy).Contents (Elt F)),
    binary main_v46 main_call1_v4 main_call1_v5 ((subf) : (⟨S100000x128, .f32⟩ : BufTy).Contents (Elt F) → (⟨S100000x128, .f32⟩ : BufTy).Contents (Elt F) → (⟨S100000x128, .f32⟩ : BufTy).Contents (Elt F)),
    binary main_call1_v5 main_call1_v5 main_call1_v6 ((mulf) : (⟨S100000x128, .f32⟩ : BufTy).Contents (Elt F) → (⟨S100000x128, .f32⟩ : BufTy).Contents (Elt F) → (⟨S100000x128, .f32⟩ : BufTy).Contents (Elt F)),
    unary main_c_11 main_call1_v7 ((sitofp .f32) : (⟨S_, .i32⟩ : BufTy).Contents (Elt F) → (⟨S_, .f32⟩ : BufTy).Contents (Elt F)),
    nullary main_call1_cst_1 (constant S_ .f32 0x47C35000#32),
    binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v8 main_call1_v10 ((broadcastInDim S128 ![] bcast_S_S128) : (⟨S_, .f32⟩ : BufTy).Contents (Elt F) → (⟨S128, .f32⟩ : BufTy).Contents (Elt F)),
    binary main_call1_v9 main_call1_v10 main_call1_v11 ((Host.divf) : (⟨S128, .f32⟩ : BufTy).Contents (Elt F) → (⟨S128, .f32⟩ : BufTy).Contents (Elt F) → (⟨S128, .f32⟩ : BufTy).Contents (Elt F)),
    nullary main_call1_cst_3 (constant S_ .f32 0x00000000#32),
    binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 ((id) : (⟨S_, .f32⟩ : BufTy).Contents (Elt F) → (⟨S_, .f32⟩ : BufTy).Contents (Elt F)),
    unary main_call1_call0_v0 main_call1_call0_v1 ((broadcastInDim S128 ![] bcast_S_S128) : (⟨S_, .f32⟩ : BufTy).Contents (Elt F) → (⟨S128, .f32⟩ : BufTy).Contents (Elt F)),
    ternary main_call1_v12 main_call1_v11 main_call1_call0_v1 main_v50 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v46 main_v52 main_v53 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v53 main_v58 main_v59 (mulf : (⟨S100000x128, .f32⟩ : BufTy).Contents (Elt F) → (⟨S100000x128, .f32⟩ : BufTy).Contents (Elt F) → (⟨S100000x128, .f32⟩ : BufTy).Contents (Elt F)),
    unary main_arg4 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (mulf : (⟨S100000x128, .f32⟩ : BufTy).Contents (Elt F) → (⟨S100000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 ((broadcastInDim S100000x128 ![] bcast_S_S100000x128) : (⟨S_, .f32⟩ : BufTy).Contents (Elt F) → (⟨S100000x128, .f32⟩ : BufTy).Contents (Elt F)),
    binary main_v65 main_call2_v0 main_v66 ((maximumf) : (⟨S100000x128, .f32⟩ : BufTy).Contents (Elt F) → (⟨S100000x128, .f32⟩ : BufTy).Contents (Elt F) → (⟨S100000x128, .f32⟩ : BufTy).Contents (Elt F)) ]

-- one hundred and seven binds re-associated: the rewrite under the chain recurses once per statement
set_option maxRecDepth 8192 in
set_option maxHeartbeats 4000000 in
/-- @main is the straight line `opsT`: the two windows and the functions' definitions unfolded at their calls and
    the records at their fields, both sides are one chain of `hlo` steps once sequencing is reassociated. -/
theorem main_eqT (c : Dev nD) : main (F := F) c = seq opsT := by
  simp only [main, main_part0, main_part1, fn_where.body, fn_where_0.body, fn_var.body, fn_relu.body, seq, bind_assoc, pure_bind]

set_option maxRecDepth 8192 in
/-- A typed reference made from a literal one carries its type by `rfl`, so the transport of an operation's function
    along it is the identity: the two lists are equal entry by entry, by computation. -/
theorem opsT_eq : (opsT : List (HloOp τ sig (Elt F))) = ops := rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- `%2` read after its reshape: row 0 of the edge table as a vector. -/
theorem reshape_v2 (he hx hy) (W : Valuation τ sig (Elt F)) :
    (reshape (τ := τ) main_v1 main_v2 he shapeCasts_S1x1600000_S1600000 hx hy).result W (Proc.devRef .tc main_v2)
      = shapeCast S1600000 (W (Proc.devRef .tc main_v1)) shapeCasts_S1x1600000_S1600000 :=
  (reshape_result main_v1 main_v2 he _ hx hy W).trans rfl

/-- `%5` read after its reshape: row 1 of the edge table as a vector. -/
theorem reshape_v5 (he hx hy) (W : Valuation τ sig (Elt F)) :
    (reshape (τ := τ) main_v4 main_v5 he shapeCasts_S1x1600000_S1600000 hx hy).result W (Proc.devRef .tc main_v5)
      = shapeCast S1600000 (W (Proc.devRef .tc main_v4)) shapeCasts_S1x1600000_S1600000 :=
  (reshape_result main_v4 main_v5 he _ hx hy W).trans rfl

/-! ## The fold at the result and at the arguments -/

set_option maxRecDepth 65536 in
set_option maxHeartbeats 4000000 in
/-- After the 107 operations the result buffer holds `tail (glue (x · w) e b) g bt` of the arguments' contents: each
    operation's result read at its own buffer is its function of its operands' contents, at any other buffer what was
    there; the two index vectors sit under a list of shape-tagged pairs, where they are rewritten one occurrence at
    a time; what is left is the definitions' unfolding. -/
theorem v66_eq (V : Valuation τ sig (Elt Ideal)) :
    after ops V (Proc.devRef .tc main_v66)
      = tail (glue (Host.dotGeneral (φ₁ := .f32) (φ₂ := .f32) dot_S100000x128_S128x128_S100000x128_1_0_0_1_n_n none (V (Proc.devRef .tc main_arg0)) (V (Proc.devRef .tc main_arg2)))
          (V (Proc.devRef .tc main_arg1)) (V (Proc.devRef .tc main_arg3))) (V (Proc.devRef .tc main_arg4)) (V (Proc.devRef .tc main_arg5)) := by
  after_results_simp
  repeat (first
    | rw [reshape_v2] | rw [reshape_v5]
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [tail, glue, colMean, colVar, coef, dinv, deg, wrapCol, srcs, dsts, id_eq]

set_option maxRecDepth 65536 in
set_option maxHeartbeats 4000000 in
/-- No operation writes argument 0. -/
theorem arg0_eq (V : Valuation τ sig (Elt Ideal)) :
    after ops V (Proc.devRef .tc main_arg0) = V (Proc.devRef .tc main_arg0) := by
  after_results_simp

set_option maxRecDepth 65536 in
set_option maxHeartbeats 4000000 in
/-- No operation writes argument 1. -/
theorem arg1_eq (V : Valuation τ sig (Elt Ideal)) :
    after ops V (Proc.devRef .tc main_arg1) = V (Proc.devRef .tc main_arg1) := by
  after_results_simp

set_option maxRecDepth 65536 in
set_option maxHeartbeats 4000000 in
/-- No operation writes argument 2. -/
theorem arg2_eq (V : Valuation τ sig (Elt Ideal)) :
    after ops V (Proc.devRef .tc main_arg2) = V (Proc.devRef .tc main_arg2) := by
  after_results_simp

set_option maxRecDepth 65536 in
set_option maxHeartbeats 4000000 in
/-- No operation writes argument 3. -/
theorem arg3_eq (V : Valuation τ sig (Elt Ideal)) :
    after ops V (Proc.devRef .tc main_arg3) = V (Proc.devRef .tc main_arg3) := by
  after_results_simp

set_option maxRecDepth 65536 in
set_option maxHeartbeats 4000000 in
/-- No operation writes argument 4. -/
theorem arg4_eq (V : Valuation τ sig (Elt Ideal)) :
    after ops V (Proc.devRef .tc main_arg4) = V (Proc.devRef .tc main_arg4) := by
  after_results_simp

set_option maxRecDepth 65536 in
set_option maxHeartbeats 4000000 in
/-- No operation writes argument 5. -/
theorem arg5_eq (V : Valuation τ sig (Elt Ideal)) :
    after ops V (Proc.devRef .tc main_arg5) = V (Proc.devRef .tc main_arg5) := by
  after_results_simp

set_option maxRecDepth 65536 in
set_option maxHeartbeats 4000000 in
/-- On every device, from any memory with zero counters: every weakly fair execution of @main terminates with the
    result at `tail (glue (x · w) e b) g bt` of the arguments' launch contents, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = tail (glue (Host.dotGeneral (φ₁ := .f32) (φ₂ := .f32) dot_S100000x128_S128x128_S100000x128_1_0_0_1_n_n none (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v66).trans (v66_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.Bridge.lean ====
/-
  Where the two programs' intermediate values meet: the host's matrix product of the reference is the row-by-column
  sum the kernel's projection region computes block by block, and the graph aggregation is one and the same function
  of the projected features, the edge list and the bias in both programs (the two texts differ only in the names of
  their dimension records).
-/
import proofs.«166404_j15324443312752_1_alg».proof.Proof.KGlue
import proofs.«166404_j15324443312752_1_alg».proof.Proof.KReg0
import proofs.«166404_j15324443312752_1_alg».proof.Proof.RefDefs
import proofs.«166404_j15324443312752_1_alg».proof.Proof.LibDense

noncomputable section

namespace Cert.Bridge

open Idealize.ShloMosaic

theorem glue_eq (h : FVec Ideal Cert.KernelIdeal.S100000x128 .f32) (e : IVec Cert.KernelIdeal.S2x1600000 32)
    (b : FVec Ideal Cert.KernelIdeal.S128 .f32) :
    Cert.KernelIdeal.Glue.aggOf h e b = Cert.ReferenceIdeal.RefRun.glue h e b := rfl

theorem dot_eq (x : FVec Ideal Cert.KernelIdeal.S100000x128 .f32) (w : FVec Ideal Cert.KernelIdeal.S128x128 .f32) :
    Host.dotGeneral (F := Ideal) (φ₁ := .f32) (φ₂ := .f32) Cert.ReferenceIdeal.dot_S100000x128_S128x128_S100000x128_1_0_0_1_n_n none x w
      = Cert.KernelIdeal.RegVal.xW x w := by
  funext i
  exact Cert.LibDense.dotGeneral_plain _ x w i

end Cert.Bridge

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.RefTail.lean ====
/-
  The reference's last stage read at one entry, on the extended reals.

  The stage takes the [100000,128] array `a` and two [128] vectors `g`, `bt`. For each column `q` it forms the
  column mean `(∑ r, a(r,q)) / 100000`, the column variance `(∑ r, (a(r,q) − mean)²) / (100000 − 0)` (guarded by a
  test that this divisor is positive, which it is), and returns at `(r, q)`

      max ( (a(r,q) − mean) · rsqrt(variance + ε) · g(q) + bt(q) , 0 ).

  Reading it at an entry is pure rewriting: a host sum over the rows started from the zero word is `0 + ∑ r`;
  a vector laid out as one row and broadcast along the rows reads its entry `q` at every row; a broadcast scalar
  word reads that word; the divisor test compares `100000 − 0` with `0`; the elementwise operations are the
  extended reals' own. No sum is ever evaluated.
-/
import proofs.«166404_j15324443312752_1_alg».proof.Proof.RefDefs
import proofs.«166404_j15324443312752_1_alg».proof.Proof.LibWords
import Idealize.ShloMosaic.Lib.ValueIdx
import Idealize.ShloMosaic.PureOps.Ideal.Laws

noncomputable section

namespace Cert.ReferenceIdeal.RefTail

open Cert.ReferenceIdeal Cert.ReferenceIdeal.Gen Idealize.ShloMosaic Idealize.ShloMosaic.ValueIdx

/-- The word of 100000.0 and the word of the variance's small offset, as extended reals. -/
abbrev Nw : EReal := Ideal.ofBits .f32 0x47C35000#32
abbrev εw : EReal := Ideal.ofBits .f32 0x3727C5AC#32

/-- 100000.0: exponent field 143, significand field 4411392, so (2²³ + 4411392) · 2^(143 − 150) = 100000. -/
theorem ofBits_100000 : Ideal.ofBits .f32 0x47C35000#32 = ((100000 : ℝ) : EReal) := by
  simp [Ideal.ofBits, Ideal.ieee, -EReal.coe_mul]; norm_num

/-- The offset's word (exponent field 110, significand field 2606508) denotes a positive real. -/
theorem ofBits_eps_pos : ∃ e : ℝ, 0 < e ∧ Ideal.ofBits .f32 0x3727C5AC#32 = (e : EReal) := by
  simp [Ideal.ofBits, Ideal.ieee, -EReal.coe_mul]

/-- A vector broadcast along the rows of the array reads, at row `r` and column `q`, its entry `q`. -/
theorem bcast_row {α : Type} (v : S128.Idx → α) (r : Fin 100000) (q : Fin 128) :
    broadcastInDim S100000x128 ![0, 1] bcast_S1x128_S100000x128_0_1 (broadcastInDim S1x128 ![1] bcast_S128_S1x128_1 v) (ix2 r q)
      = v (ix1 q) := by
  unfold broadcastInDim
  refine congrArg v (funext fun a => ?_)
  match a with
  | ⟨0, _⟩ => rfl

/-- The host's sum over the rows, started from the zero word, at column `q`. -/
theorem host_sum_first (x : FVec Ideal S100000x128 .f32) (q : Fin 128) :
    Host.reduceAdd x (constant S_ .f32 0x00000000#32) reducesTo_S100000x128_S128_d0 h_S_ (ix1 q)
      = ∑ r : Fin 100000, x (ix2 r q) := by
  unfold Host.reduceAdd
  refine (Ideal.hostReduceAdd_single reducesTo_S100000x128_S128_d0 (by decide) x _ (ix1 q)).trans ?_
  refine (congrArg₂ (· + ·) Ideal.ofBits_zero_f32 rfl).trans ?_
  refine (zero_add _).trans ?_
  refine Finset.sum_congr rfl fun r _ => congrArg x (funext fun a => Fin.ext ?_)
  match a with
  | ⟨0, _⟩ => rfl
  | ⟨1, _⟩ => rfl

/-- The divisor `100000 − 0` is the word of 100000. -/
theorem divisor_eq : (Nw - (((0#32 : BitVec 32).toInt : ℝ) : EReal)) = Nw := by
  simp

/-- It is positive, so the test on the variance's divisor holds. -/
theorem ddof_test : Ideal.cmp .ogt (Nw - (((0#32 : BitVec 32).toInt : ℝ) : EReal)) (Ideal.ofBits .f32 0x00000000#32) = 1#1 := by
  rw [divisor_eq, Ideal.ofBits_zero_f32]
  show BitVec.ofBool (decide ((0 : EReal) < Nw)) = 1#1
  rw [show Nw = ((100000 : ℝ) : EReal) from ofBits_100000]
  have : (0 : EReal) < ((100000 : ℝ) : EReal) := by exact_mod_cast (by norm_num : (0 : ℝ) < 100000)
  simp [this]

/-- the column mean at column q -/
def meanAt (a : FVec Ideal S100000x128 .f32) (q : Fin 128) : EReal := Ideal.div (∑ r : Fin 100000, a (ix2 r q)) Nw

/-- The column means, read at column `q`. -/
theorem colMean_apply (a : FVec Ideal S100000x128 .f32) (q : Fin 128) :
    Cert.ReferenceIdeal.RefRun.colMean a (ix1 q) = meanAt a q := by
  unfold Cert.ReferenceIdeal.RefRun.colMean meanAt
  show Ideal.div (Host.reduceAdd a (constant S_ .f32 0x00000000#32) reducesTo_S100000x128_S128_d0 h_S_ (ix1 q)) Nw = _
  rw [host_sum_first]

/-- The host's division and reciprocal square root, at an index. -/
theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl

/-- A one-row array broadcast along the rows reads, at row `r` and column `q`, its entry `(0, q)`; -/
theorem bcast_rows {α : Type} (D : S1x128.Idx → α) (r : Fin 100000) (q : Fin 128) :
    broadcastInDim S100000x128 ![0, 1] bcast_S1x128_S100000x128_0_1 D (ix2 r q) = D (ix2 (0 : Fin 1) q) := by
  unfold broadcastInDim
  refine congrArg D (funext fun a => ?_)
  match a with
  | ⟨0, _⟩ => rfl
  | ⟨1, _⟩ => rfl

/-- and a vector laid out as one row reads, at `(0, q)`, its entry `q`. -/
theorem bcast_col {α : Type} (v : S128.Idx → α) (q : Fin 128) :
    broadcastInDim S1x128 ![1] bcast_S128_S1x128_1 v (ix2 (0 : Fin 1) q) = v (ix1 q) := by
  unfold broadcastInDim
  refine congrArg v (funext fun a => ?_)
  match a with
  | ⟨0, _⟩ => rfl

/-- The mean as the variance computes it (the column sums laid out as one row, divided there, then broadcast along
    the rows) is, at row `r` and column `q`, the mean of column `q`. -/
theorem mean_row (a : FVec Ideal S100000x128 .f32) (r : Fin 100000) (q : Fin 128) :
    broadcastInDim S100000x128 ![0, 1] bcast_S1x128_S100000x128_0_1
        (Host.divf (broadcastInDim S1x128 ![1] bcast_S128_S1x128_1 (Host.reduceAdd a (constant S_ .f32 0x00000000#32) reducesTo_S100000x128_S128_d0 h_S_))
          (broadcastInDim S1x128 ![] bcast_S_S1x128 (constant S_ .f32 0x47C35000#32))) (ix2 r q)
      = meanAt a q := by
  refine (bcast_rows _ r q).trans ?_
  refine (hostDivf_apply _ _ _).trans ?_
  unfold meanAt
  refine congrArg₂ Ideal.div ?_ rfl
  exact (bcast_col _ q).trans (host_sum_first a q)

/-- The variance's select on its divisor test takes its first branch. -/
theorem select_ddof {α : Type} (A B : S128.Idx → α) (q : Fin 128) :
    select (broadcastInDim S128 ![] bcast_S_S128 (cmpf (F := Ideal) .ogt (subf (constant S_ .f32 0x47C35000#32) (sitofp (F := Ideal) .f32 (constantI S_ 32 0#32))) (constant S_ .f32 0x00000000#32))) A B (ix1 q)
      = A (ix1 q) := by
  refine (select_apply _ _ _ (ix1 q)).trans ?_
  refine (congrArg (fun b => Scalar.select b (A (ix1 q)) (B (ix1 q))) (?_ : _ = 1#1)).trans (select_one _ _)
  exact ddof_test

/-- The column variances, read at column `q`: the sum of the squared deviations from the column mean, over 100000. -/
theorem colVar_apply (a : FVec Ideal S100000x128 .f32) (q : Fin 128) :
    Cert.ReferenceIdeal.RefRun.colVar a (ix1 q)
      = Ideal.div (∑ r' : Fin 100000, (a (ix2 r' q) - meanAt a q) * (a (ix2 r' q) - meanAt a q)) Nw := by
  unfold Cert.ReferenceIdeal.RefRun.colVar
  refine (select_ddof _ _ q).trans ?_
  refine (hostDivf_apply _ _ (ix1 q)).trans ?_
  refine congrArg₂ Ideal.div ?_ divisor_eq
  refine (host_sum_first _ q).trans ?_
  refine Finset.sum_congr rfl fun r' _ => ?_
  refine (mulf_apply _ _ _).trans ?_
  have e := (subf_apply a _ (ix2 r' q)).trans (congrArg (fun z => a (ix2 r' q) - z) (mean_row a r' q))
  exact congrArg₂ (· * ·) e e

theorem tail_apply (a : FVec Ideal S100000x128 .f32) (g bt : FVec Ideal S128 .f32) (r : Fin 100000) (q : Fin 128) :
    Cert.ReferenceIdeal.RefRun.tail a g bt (ix2 r q)
      = max (((a (ix2 r q) - meanAt a q) * Ideal.rsqrt (Ideal.div (∑ r' : Fin 100000, (a (ix2 r' q) - meanAt a q) * (a (ix2 r' q) - meanAt a q)) Nw + εw)) * g (ix1 q) + bt (ix1 q)) 0 := by
  unfold Cert.ReferenceIdeal.RefRun.tail
  refine (maximumf_apply _ _ (ix2 r q)).trans ?_
  refine congrArg₂ max ?_ ?_
  · refine (addf_apply _ _ _).trans ?_
    refine congrArg₂ (· + ·) ?_ (bcast_row bt r q)
    refine (mulf_apply _ _ _).trans ?_
    refine congrArg₂ (· * ·) ?_ (bcast_row g r q)
    refine (mulf_apply _ _ _).trans ?_
    refine congrArg₂ (· * ·) ?_ ?_
    · exact (subf_apply _ _ _).trans (congrArg (fun z => a (ix2 r q) - z) ((bcast_row _ r q).trans (colMean_apply a q)))
    · refine (bcast_row _ r q).trans ?_
      refine (hostRsqrt_apply _ (ix1 q)).trans ?_
      refine congrArg Ideal.rsqrt ?_
      refine (addf_apply _ _ _).trans ?_
      exact congrArg₂ (· + ·) (colVar_apply a q) rfl
  · exact Ideal.ofBits_zero_f32

end Cert.ReferenceIdeal.RefTail
end
-- ==== Proof.Algebra.lean ====
/-
  Batch normalisation of one column, two ways, on the extended reals.

  A column `a : Fin n → EReal` of REAL entries, an affine pair `g`, `b` of reals, the row count `N = n > 0` and a
  positive real `ε`. One side takes the mean `S / N` and the variance as `Q / N − mean²` (`S`, `Q` the sums of the
  entries and of their squares), folds the inverse standard deviation into a scale `g · ρ` and a shift
  `b − mean · (g · ρ)`, and returns `x · scale + shift`. The other centres first: variance `(Σ (a − mean)²) / N`,
  result `((x − mean) · ρ') · g + b`. Over the reals `Σ (a − mean)² = Q − N · mean²`, so the two variances agree; they
  are nonnegative, so with `ε > 0` the inverse square root is a real, and the two results are the same real by
  distributivity. Every step lives among reals: that is where the finiteness of the column is used.
-/
import Idealize.ShloMosaic.PureOps.Ideal

noncomputable section

namespace Cert.BatchNorm

open Idealize.ShloMosaic

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.sub {x y : EReal} (hx : IsReal x) (hy : IsReal y) : IsReal (x - y) := by
  obtain ⟨r, rfl⟩ := hx; obtain ⟨s, rfl⟩ := hy; exact ⟨r - s, (EReal.coe_sub r s).symm⟩
theorem isReal_sum {ι : Type*} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The quotient of a real by a nonzero real. -/
theorem div_real (x y : ℝ) (hy : y ≠ 0) : Ideal.div (x : EReal) (y : EReal) = ((x / y : ℝ) : EReal) := by
  rw [Ideal.div_coe hy, ← EReal.coe_mul]
  congr 1
  field_simp

/-- The inverse square root of a positive real is a real. -/
theorem rsqrt_pos (x : ℝ) (hx : 0 < x) : Ideal.rsqrt (x : EReal) = (((Real.sqrt x)⁻¹ : ℝ) : EReal) := by
  rw [Ideal.rsqrt_coe, if_neg (not_lt.mpr hx.le), if_neg hx.ne']

/-- The centred sum of squares over `n` reals with mean `S / n`. -/
theorem centred_sq {n : ℕ} (hn : 0 < n) (a : Fin n → ℝ) :
    (∑ r, (a r - (∑ r, a r) / n) * (a r - (∑ r, a r) / n)) / n = (∑ r, a r * a r) / n - ((∑ r, a r) / n) * ((∑ r, a r) / n) := by
  have hn' : (n : ℝ) ≠ 0 := Nat.cast_ne_zero.mpr hn.ne'
  set μ : ℝ := (∑ r, a r) / n with hμ
  have hS : ∑ r, a r = μ * n := by rw [hμ]; field_simp
  have h1 : ∑ r, (a r - μ) * (a r - μ) = (∑ r, a r * a r) - 2 * μ * (∑ r, a r) + n * (μ * μ) := by
    have : ∀ r, (a r - μ) * (a r - μ) = a r * a r - 2 * μ * a r + μ * μ := fun r => by ring
    simp only [this, Finset.sum_add_distrib, Finset.sum_sub_distrib, ← Finset.mul_sum, Finset.sum_const, Finset.card_univ,
      Fintype.card_fin, nsmul_eq_mul]
    ring
  rw [h1, hS]
  field_simp
  ring

/-- A mean of squares is nonnegative. -/
theorem centred_nonneg {n : ℕ} (a : Fin n → ℝ) (μ : ℝ) : 0 ≤ (∑ r, (a r - μ) * (a r - μ)) / n :=
  div_nonneg (Finset.sum_nonneg fun r _ => mul_self_nonneg _) (Nat.cast_nonneg n)

end Cert.BatchNorm

end
-- ==== Proof.BnLaw.lean ====
/-
  The two arrangements of batch normalisation agree on a column of reals (the statement the two programs meet at).
-/
import proofs.«166404_j15324443312752_1_alg».proof.Proof.Algebra

noncomputable section

namespace Cert.BatchNorm

open Idealize.ShloMosaic

/-- For a column `a` of `n > 0` reals, real `g`, `b`, `x`, the row count `N = n` and `ε > 0`:
    `x · (g · ρ) + (b − (S/N) · (g · ρ))` with `ρ = rsqrt (Q/N − (S/N)² + ε)` equals
    `((x − S/N) · ρ') · g + b` with `ρ' = rsqrt ((Σ (a − S/N)²)/N + ε)`, and so do their maxima with zero. -/
theorem two_ways {n : ℕ} (hn : 0 < n) (a : Fin n → EReal) (ha : ∀ r, IsReal (a r)) (g b x : EReal) (hg : IsReal g) (hb : IsReal b)
    (hx : IsReal x) (Nw εw : EReal) (hN : Nw = ((n : ℝ) : EReal)) (hε : ∃ e : ℝ, 0 < e ∧ εw = (e : EReal)) :
    max (x * (g * Ideal.rsqrt ((Ideal.div (∑ r, a r * a r) Nw - Ideal.div (∑ r, a r) Nw * Ideal.div (∑ r, a r) Nw) + εw))
          + (b - Ideal.div (∑ r, a r) Nw
                  * (g * Ideal.rsqrt ((Ideal.div (∑ r, a r * a r) Nw - Ideal.div (∑ r, a r) Nw * Ideal.div (∑ r, a r) Nw) + εw)))) 0
      = max (((x - Ideal.div (∑ r, a r) Nw)
              * Ideal.rsqrt (Ideal.div (∑ r, (a r - Ideal.div (∑ r, a r) Nw) * (a r - Ideal.div (∑ r, a r) Nw)) Nw + εw)) * g + b) 0 := by
  choose A hA using ha
  obtain ⟨G, rfl⟩ := hg
  obtain ⟨B, rfl⟩ := hb
  obtain ⟨X, rfl⟩ := hx
  obtain ⟨e, he, rfl⟩ := hε
  subst hN
  have hn' : (n : ℝ) ≠ 0 := Nat.cast_ne_zero.mpr hn.ne'
  have hS : ∑ r, a r = ((∑ r, A r : ℝ) : EReal) := by
    rw [coe_sum]; exact Finset.sum_congr rfl fun r _ => hA r
  have hQ : ∑ r, a r * a r = ((∑ r, A r * A r : ℝ) : EReal) := by
    rw [coe_sum]; exact Finset.sum_congr rfl fun r _ => by rw [hA r, EReal.coe_mul]
  set μ : ℝ := (∑ r, A r) / n with hμ
  have hM : Ideal.div (∑ r, a r) ((n : ℝ) : EReal) = (μ : EReal) := by rw [hS, div_real _ _ hn']
  have hC : ∑ r, (a r - (μ : EReal)) * (a r - (μ : EReal)) = ((∑ r, (A r - μ) * (A r - μ) : ℝ) : EReal) := by
    rw [coe_sum]; exact Finset.sum_congr rfl fun r _ => by rw [hA r, ← EReal.coe_sub, ← EReal.coe_mul]
  have hv : (∑ r, (A r - μ) * (A r - μ)) / n = (∑ r, A r * A r) / n - μ * μ := centred_sq hn A
  have hpos : 0 < (∑ r, A r * A r) / n - μ * μ + e := by
    have := centred_nonneg A μ
    rw [hv] at this
    linarith
  rw [hM, hQ, hC, div_real _ _ hn', div_real _ _ hn', hv, ← EReal.coe_mul, ← EReal.coe_sub, ← EReal.coe_add, rsqrt_pos _ hpos]
  simp only [← EReal.coe_mul, ← EReal.coe_sub, ← EReal.coe_add]
  congr 2
  ring

end Cert.BatchNorm

end
-- ==== Proof.Final.lean ====
/-
  The kernel program's scale-and-shift arrangement of batch normalisation and the reference's centred arrangement
  give the same array when every entry of the aggregation and of the affine parameters is a real: entry (r, q) of
  either side is the column law of `BatchNorm.two_ways` at column q of the aggregation, with the row count word read
  as 100000 and the variance offset word as a positive real.
-/
import proofs.«166404_j15324443312752_1_alg».proof.Proof.KFold
import proofs.«166404_j15324443312752_1_alg».proof.Proof.RefTail
import proofs.«166404_j15324443312752_1_alg».proof.Proof.BnLaw

noncomputable section

namespace Cert.Final

open Cert.KernelIdeal Idealize.ShloMosaic Idealize.ShloMosaic.ValueIdx Cert.BatchNorm

theorem tails_eq (a : FVec Ideal S100000x128 .f32) (g bt : FVec Ideal S128 .f32)
    (ha : ∀ i, IsReal (a i)) (hg : ∀ i, IsReal (g i)) (hb : ∀ i, IsReal (bt i)) :
    RegVal.scaleShiftRelu a (Tail.scaleK (Fold.colSum a) (Fold.colSq a) g) (Tail.shiftK (Fold.colSum a) (Fold.colSq a) g bt)
      = Cert.ReferenceIdeal.RefRun.tail a g bt := by
  funext i
  obtain ⟨r, q, rfl⟩ : ∃ (r : Fin 100000) (q : Fin 128), i = ix2 r q := ⟨i 0, i 1, eq_ix2 i⟩
  rw [Cert.ReferenceIdeal.RefTail.tail_apply]
  show max (a (ix2 r q) * Tail.scaleK (Fold.colSum a) (Fold.colSq a) g (ix1 q)
      + Tail.shiftK (Fold.colSum a) (Fold.colSq a) g bt (ix1 q)) 0 = _
  rw [Tail.shiftK_apply, Tail.scaleK_apply]
  exact two_ways (n := 100000) (by norm_num) (fun r' => a (ix2 r' q)) (fun r' => ha _) (g (ix1 q)) (bt (ix1 q)) (a (ix2 r q))
    (hg _) (hb _) (ha _) _ _ (Cert.ReferenceIdeal.RefTail.ofBits_100000.trans (by norm_num)) Cert.ReferenceIdeal.RefTail.ofBits_eps_pos

end Cert.Final

end
-- ==== Proof.PreReal.lean ====
/-
  From the precondition to "every float input entry is a real".

  The precondition says, for each of the five float arrays a, that all entries of |a| lie strictly below the word of
  +∞, and joins the five answers by "and". On the extended reals |x| is max x (−x) and the word denotes ⊤, so
  |x| < ⊤ excludes both x = ⊤ and x = ⊥ and leaves a real. A reduction by "and" over all axes that answers 1 met
  a 1 at every index; that is the only fact about the reductions that is used, whatever the array's size.
-/
import proofs.«166404_j15324443312752_1_alg».proof.Pre_finite_inputs
import proofs.«166404_j15324443312752_1_alg».proof.Proof.Gen.Pre_finite_inputs
import proofs.«166404_j15324443312752_1_alg».proof.Proof.Algebra
import Idealize.ShloMosaic.Lib.ReduceAll
import Idealize.ShloMosaic.Lib.ValueIdx
import Idealize.ShloMosaic.PureOps.Ideal.Laws

noncomputable section

namespace Cert.PreReal

open Idealize.ShloMosaic Cert.Pre_finite_inputs

/-- The scalar shape has one index. -/
instance : Subsingleton S_.Idx := ⟨fun a b => funext fun d => d.elim0⟩

/-- An extended real whose absolute value is strictly below the word of +∞ is a real. -/
theorem real_of_abs_lt_inf (x : EReal)
    (h : Ideal.cmp .olt (max x (-x)) (Ideal.ofBits .f32 0x7F800000#32) = 1#1) : Cert.BatchNorm.IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  have h1 : x ≠ ⊤ := ne_of_lt hlt.1
  have h2 : x ≠ ⊥ := by
    intro hb
    rw [hb] at hlt
    simp at hlt
  exact ⟨x.toReal, (EReal.coe_toReal h1 h2).symm⟩

/-- "All entries of |a| are below +∞", answered 1, makes every entry of a a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) :
    Cert.BatchNorm.IsReal (a i) :=
  real_of_abs_lt_inf (a i) (Host.reduce_andi_all _ _ hr hu ValueIdx.ix0 e i)

/-- The precondition, answered 1, makes every entry of the five float arrays a real. -/
theorem real_of_pre [Cert.Pre_finite_inputs.Facts] (x : FVec Ideal Cert.Pre_finite_inputs.S100000x128 .f32)
    (e : IVec Cert.Pre_finite_inputs.S2x1600000 32) (w : FVec Ideal Cert.Pre_finite_inputs.S128x128 .f32)
    (b g bt : FVec Ideal Cert.Pre_finite_inputs.S128 .f32)
    (h : Cert.Pre_finite_inputs.fn (F := Ideal) x e w b g bt = fun _ => 1#1) :
    (∀ i, Cert.BatchNorm.IsReal (x i)) ∧ (∀ i, Cert.BatchNorm.IsReal (w i)) ∧ (∀ i, Cert.BatchNorm.IsReal (b i))
      ∧ (∀ i, Cert.BatchNorm.IsReal (g i)) ∧ (∀ i, Cert.BatchNorm.IsReal (bt i)) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_real x _ _ _ h1, all_real w _ _ _ h2, all_real b _ _ _ h3, all_real g _ _ _ h4, all_real bt _ _ _ h5⟩

end Cert.PreReal

end
-- ==== Proof.AggReal.lean ====
/-
  Every entry of the graph aggregation of real features is a real.

  The aggregation is built from operations each of which keeps "every entry is a real": a constant array of a word
  that denotes a real; a broadcast and a gather, whose entries are entries of their operand whatever the indices
  are; entrywise products and sums; an accumulating scatter, whose entry is the operand's entry plus a finite sum
  of updates; and the selection between the inverse square root and zero by the comparison with zero, because the
  inverse square root of a positive real is a real. The in-degree is zero plus a finite sum of ones, the per-node
  factor is that selection applied to it, a message is a gathered feature times two gathered factors, and the
  aggregation is the scatter of the messages plus the bias row. The product of two real matrices has entries that
  are finite sums of products of reals.
-/
import proofs.«166404_j15324443312752_1_alg».proof.Proof.KGlue
import proofs.«166404_j15324443312752_1_alg».proof.Proof.Algebra
import proofs.«166404_j15324443312752_1_alg».proof.Proof.LibWords
import proofs.«166404_j15324443312752_1_alg».proof.Proof.KReg0
import Idealize.ShloMosaic.Lib.ValueIdx
import Idealize.ShloMosaic.PureOps.Ideal
import Idealize.ShloMosaic.PureOps.Ideal.Laws

noncomputable section

namespace Cert.KernelIdeal.AggReal

open Cert.KernelIdeal Cert.KernelIdeal.Gen
open Idealize.ShloMosaic Idealize.ShloMosaic.ValueIdx
open Cert.BatchNorm (IsReal isReal_zero isReal_one isReal_coe isReal_sum)

/-! ## Operations that keep every entry a real -/

/-- The zero word denotes a real. -/
theorem zero_word_real : IsReal (Ideal.ofBits .f32 0x00000000#32) := by
  rw [Ideal.ofBits_zero_f32]; exact isReal_zero

/-- The word of 1.0 denotes a real. -/
theorem one_word_real : IsReal (Ideal.ofBits .f32 0x3F800000#32) := by
  rw [Cert.Chamfer.Words.ofBits_one]; exact isReal_one

/-- Every entry of a constant array is what its word denotes. -/
theorem real_constant {s : Shape} (wd : BitVec 32) (hw : IsReal (Ideal.ofBits .f32 wd)) (i : s.Idx) :
    IsReal (constant (F := Ideal) s .f32 wd i) := hw

/-- An entry of a broadcast is an entry of its operand. -/
theorem real_broadcastInDim {s t : Shape} (dims : Fin s.rank → Fin t.rank) (h : s.BroadcastsInDim t dims) (x : s.Idx → EReal)
    (hx : ∀ k, IsReal (x k)) (j : t.Idx) : IsReal (broadcastInDim t dims h x j) := by
  unfold broadcastInDim
  exact hx _

/-- An entry of a gather is an entry of its operand, whatever the indices. -/
theorem real_gather {s si t : Shape} {w : ℕ} (d : GatherDims s si t) (x : s.Idx → EReal) (idx : IVec si w)
    (hx : ∀ k, IsReal (x k)) (j : t.Idx) : IsReal (Host.gather d x idx j) := by
  unfold Host.gather
  exact hx _

/-- An entry of a product of arrays is the product of the entries. -/
theorem real_mulf {s : Shape} (a b : FVec Ideal s .f32) (ha : ∀ k, IsReal (a k)) (hb : ∀ k, IsReal (b k)) (i : s.Idx) :
    IsReal (mulf a b i) := by
  rw [mulf_apply]; exact (ha i).mul (hb i)

/-- An entry of a sum of arrays is the sum of the entries. -/
theorem real_addf {s : Shape} (a b : FVec Ideal s .f32) (ha : ∀ k, IsReal (a k)) (hb : ∀ k, IsReal (b k)) (i : s.Idx) :
    IsReal (addf a b i) := by
  rw [addf_apply]; exact (ha i).add (hb i)

/-- An entry of an accumulating scatter is the operand's entry plus a finite sum of updates. -/
theorem real_scatterAdd {s si u : Shape} {w : ℕ} (d : ScatterDims s si u) (x : FVec Ideal s .f32) (idx : IVec si w)
    (upd : FVec Ideal u .f32) (hx : ∀ k, IsReal (x k)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (isReal_sum _ _ fun j _ => hu j)

/-- Where a real is positive its inverse square root is a real; elsewhere the zero word is chosen. -/
theorem real_select_rsqrt (d : EReal) (hd : IsReal d) :
    IsReal (Scalar.select (Ideal.cmp .ogt d (Ideal.ofBits .f32 0x00000000#32)) (Ideal.rsqrt d) (Ideal.ofBits .f32 0x00000000#32)) := by
  obtain ⟨r, rfl⟩ := hd
  rw [Ideal.ofBits_zero_f32]
  unfold Scalar.select
  split
  · rename_i hc
    have hpos : (0 : EReal) < (r : EReal) := by
      by_contra hn
      simp [Ideal.cmp, hn] at hc
    have hr : 0 < r := by exact_mod_cast hpos
    rw [Cert.BatchNorm.rsqrt_pos r hr]
    exact isReal_coe _
  · exact isReal_zero

/-- The same for arrays of any shape: the selection between the inverse square roots and the zero word, by the
    comparison of the array with the zero word, has real entries when the array has. -/
theorem real_select_rsqrt_array {s : Shape} (deg : FVec Ideal s .f32) (hbc : S_.BroadcastsInDim s (![] : Fin 0 → Fin s.rank))
    (hdeg : ∀ k, IsReal (deg k)) (i : s.Idx) :
    IsReal (select (cmpf .ogt deg (broadcastInDim s ![] hbc (constant (F := Ideal) S_ .f32 0x00000000#32)))
      (Host.rsqrt (F := Ideal) deg) (broadcastInDim s ![] hbc (constant (F := Ideal) S_ .f32 0x00000000#32)) i) :=
  real_select_rsqrt (deg i) (hdeg i)

/-! ## The degree, the per-node factor, the aggregation -/

/-- The in-degree: zero plus a finite sum of ones. -/
theorem degOf_real (e : IVec S2x1600000 32) (i : S100000.Idx) : IsReal (Cert.KernelIdeal.Glue.degOf e i) := by
  unfold Cert.KernelIdeal.Glue.degOf
  refine real_scatterAdd _ _ _ _ ?_ ?_ i
  · intro k; exact real_broadcastInDim _ _ _ (real_constant _ zero_word_real) k
  · intro j; exact real_broadcastInDim _ _ _ (real_constant _ one_word_real) j

/-- The per-node factor. -/
theorem dinvOf_real (e : IVec S2x1600000 32) (i : S100000.Idx) : IsReal (Cert.KernelIdeal.Glue.dinvOf e i) := by
  unfold Cert.KernelIdeal.Glue.dinvOf Cert.KernelIdeal.Glue.dinvFrom
  exact real_select_rsqrt_array (Cert.KernelIdeal.Glue.degOf e) _ (degOf_real e) i

/-- The aggregation from real features, a real per-node factor and a real bias, whatever the index columns. -/
theorem aggFrom_real (h : FVec Ideal S100000x128 .f32) (src dst : IVec S1700000 32) (dinv : FVec Ideal S100000 .f32)
    (b : FVec Ideal S128 .f32) (hh : ∀ i, IsReal (h i)) (hd : ∀ i, IsReal (dinv i)) (hb : ∀ i, IsReal (b i))
    (i : S100000x128.Idx) : IsReal (Cert.KernelIdeal.Glue.aggFrom h src dst dinv b i) := by
  unfold Cert.KernelIdeal.Glue.aggFrom
  refine real_addf _ _ ?_ ?_ i
  · intro i'
    refine real_scatterAdd _ _ _ _ ?_ ?_ i'
    · intro k; exact real_broadcastInDim _ _ _ (real_constant _ zero_word_real) k
    · intro j
      refine real_mulf _ _ ?_ ?_ j
      · intro j'; exact real_gather _ _ _ hh j'
      · intro j'
        refine real_broadcastInDim _ _ _ ?_ j'
        intro m
        refine real_broadcastInDim _ _ _ ?_ m
        intro n
        refine real_mulf _ _ ?_ ?_ n
        · intro n'; exact real_gather _ _ _ hd n'
        · intro n'; exact real_gather _ _ _ hd n'
  · intro i'
    refine real_broadcastInDim _ _ _ ?_ i'
    intro k
    exact real_broadcastInDim _ _ _ hb k

/-- Every entry of the graph aggregation of real features and a real bias is a real. -/
theorem aggOf_real (h : FVec Ideal S100000x128 .f32) (e : IVec S2x1600000 32) (b : FVec Ideal S128 .f32)
    (hh : ∀ i, Cert.BatchNorm.IsReal (h i)) (hb : ∀ i, Cert.BatchNorm.IsReal (b i)) (i : S100000x128.Idx) :
    Cert.BatchNorm.IsReal (Cert.KernelIdeal.Glue.aggOf h e b i) := by
  unfold Cert.KernelIdeal.Glue.aggOf
  exact aggFrom_real h _ _ _ b hh (dinvOf_real e) hb i

/-- Every entry of the product of two real matrices is a real: a finite sum of products. -/
theorem xW_real (x : S100000x128.Idx → EReal) (w : S128x128.Idx → EReal) (hx : ∀ i, Cert.BatchNorm.IsReal (x i))
    (hw : ∀ i, Cert.BatchNorm.IsReal (w i)) (i : S100000x128.Idx) : Cert.BatchNorm.IsReal (Cert.KernelIdeal.RegVal.xW x w i) := by
  show IsReal (Cert.LibDense.prod x w i)
  unfold Cert.LibDense.prod
  exact isReal_sum _ _ fun k _ => (hx _).mul (hw _)

end Cert.KernelIdeal.AggReal

end
-- ==== Proof.lean ====
/-
  A graph-convolution layer followed by batch normalisation and a rectifier, computed two ways.

  Both programs project the node features (`h = x · W`), aggregate them over the edges with the symmetric degree
  normalisation (gather the source rows, weight each edge by the inverse square roots of its end nodes' degrees,
  scatter-add into the destination rows, add the bias), and normalise each of the 128 columns over the 100000 rows.
  The kernel program does the product and the two normalisation passes in three pallas regions: block-row products;
  the column sums `S` and sums of squares `Q` accumulated over twenty blocks; then `max (agg · scale + shift) 0` with
  `scale = γ · rsqrt (Q/N − (S/N)² + ε)` and `shift = β − (S/N) · scale`. The reference centres first:
  `max (((agg − S/N) · rsqrt ((Σ (agg − S/N)²)/N + ε)) · γ + β) 0`.

  At the ideal instance the block products are the whole product, the accumulated sums are the column sums (addition of
  extended reals is commutative and associative), and the aggregation is literally the same function in both
  programs. Under the precondition every entry of `x`, `W`, `b`, `γ`, `β` is a real; gathers pick entries, the degree is
  a finite sum of ones and its inverse square root is taken only where it is positive, scatter-adds are finite sums: so
  every entry of the aggregation is a real, and on a column of reals the two normalisations are one real number
  (`Σ (a − μ)² = Q − N μ²`, the variance is nonnegative, `ε > 0`, distributivity). The kernel's idealisation rewrote
  nothing, and the three frames are the runs with the values forgotten.
-/
import proofs.«166404_j15324443312752_1_alg».proof.Defs
import proofs.«166404_j15324443312752_1_alg».proof.Proof.Gen.Kernel
import proofs.«166404_j15324443312752_1_alg».proof.Proof.Gen.Kernel.Skeleton
import proofs.«166404_j15324443312752_1_alg».proof.Proof.Gen.Kernel.Launch
import proofs.«166404_j15324443312752_1_alg».proof.Proof.Gen.Kernel.Points
import proofs.«166404_j15324443312752_1_alg».proof.Proof.Gen.Kernel.Frame
import proofs.«166404_j15324443312752_1_alg».proof.Proof.Gen.KernelIdeal
import proofs.«166404_j15324443312752_1_alg».proof.Proof.Gen.KernelIdeal.Skeleton
import proofs.«166404_j15324443312752_1_alg».proof.Proof.Gen.KernelIdeal.Launch
import proofs.«166404_j15324443312752_1_alg».proof.Proof.Gen.KernelIdeal.Points
import proofs.«166404_j15324443312752_1_alg».proof.Proof.Gen.KernelIdeal.Frame
import proofs.«166404_j15324443312752_1_alg».proof.Proof.Gen.ReferenceIdeal
import proofs.«166404_j15324443312752_1_alg».proof.Proof.Gen.Pre_finite_inputs
import proofs.«166404_j15324443312752_1_alg».proof.Proof.KFold
import proofs.«166404_j15324443312752_1_alg».proof.Proof.RefRun
import proofs.«166404_j15324443312752_1_alg».proof.Proof.Bridge
import proofs.«166404_j15324443312752_1_alg».proof.Proof.Final
import proofs.«166404_j15324443312752_1_alg».proof.Proof.PreReal
import proofs.«166404_j15324443312752_1_alg».proof.Proof.AggReal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealisation rewrote no operation. -/
theorem preserves : Cert.preserves_Kernel_KernelIdeal := trivial

/-- Both runs end at `max (agg · scale + shift) 0` of the shared aggregation: the kernel's by its fold, the reference's
    because its matrix product and aggregation are the kernel's and its centred normalisation of a column of reals is
    the scale-and-shift one. -/
theorem algebraic : Cert.algebraic_KernelIdeal_ReferenceIdeal := by
  intro m ρ m' ρ' hpre hagree
  refine ⟨fun c => Cert.KernelIdeal.RegVal.scaleShiftRelu (Cert.KernelIdeal.Fold.agg m c) (Cert.KernelIdeal.Fold.scale m c)
    (Cert.KernelIdeal.Fold.shift m c), Cert.KernelIdeal.Fold.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5⟩ := hagree c
  obtain ⟨rx, rw', rb, rg, rbt⟩ := Cert.PreReal.real_of_pre _ _ _ _ _ _ (hpre c)
  rw [h0, h1, h2, h3, h4, h5, Cert.Bridge.dot_eq, ← Cert.Bridge.glue_eq]
  exact (Cert.Final.tails_eq _ _ _
    (Cert.KernelIdeal.AggReal.aggOf_real _ _ _ (Cert.KernelIdeal.AggReal.xW_real _ _ rx rw') rb) rg rbt).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
